-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x4096 : Shape := ⟨2, ![512, 4096]⟩
abbrev S4096x4096 : Shape := ⟨2, ![4096, 4096]⟩
abbrev S_ : Shape := ⟨0, ![]⟩

class Facts : Prop where
  bcast_S_S512x4096 : S_.BroadcastsInDim S512x4096 (![] : Fin 0 → Fin S512x4096.rank)
  reducesTo_S512x4096_S_d0_1 : S512x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_v13 : IVec S_ 1) (main_v16 : IVec S4096x4096 1) : IVec S_ 1 :=
  let main_c_5 : IVec S_ 1 := constantI S_ 1 1#1
  let main_v17 : IVec S_ 1 := (fun x v => Host.reduce IntOp.andi x v reducesTo_S4096x4096_S_d0_1 h_S_) main_v16 main_c_5
  let main_v18 : IVec S_ 1 := andi main_v13 main_v17
  main_v18

def fn {F : FTy → Type} [FloatOps F] (main_arg0 : FVec F S512x4096 .f32) (main_arg1 : FVec F S4096x4096 .f32) (main_arg2 : FVec F S4096x4096 .f32) (main_arg3 : FVec F S4096x4096 .f32) : IVec S_ 1 :=
  let main_v0 : FVec F S512x4096 .f32 := Host.absf main_arg0
  let main_cst : FVec F S_ .f32 := constant S_ .f32 0x7F800000#32
  let main_v1 : FVec F S512x4096 .f32 := broadcastInDim S512x4096 ![] bcast_S_S512x4096 main_cst
  let main_v2 : IVec S512x4096 1 := cmpf .olt main_v0 main_v1
  let main_c : IVec S_ 1 := constantI S_ 1 1#1
  let main_v3 : IVec S_ 1 := (fun x v => Host.reduce IntOp.andi x v reducesTo_S512x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096x4096 .f32 := Host.absf main_arg3
  let main_cst_4 : FVec F S_ .f32 := constant S_ .f32 0x7F800000#32
  let main_v15 : FVec F S4096x4096 .f32 := broadcastInDim S4096x4096 ![] bcast_S_S4096x4096 main_cst_4
  let main_v16 : IVec S4096x4096 1 := cmpf .olt main_v14 main_v15
  fn_part1 (F := F) main_v13 main_v16
-- ==== Kernel.lean ====
abbrev S512x4096 : Shape := ⟨2, ![512, 4096]⟩
abbrev S4096x4096 : Shape := ⟨2, ![4096, 4096]⟩
abbrev S64x1024 : Shape := ⟨2, ![64, 1024]⟩
abbrev S512x1024 : Shape := ⟨2, ![512, 1024]⟩
abbrev S512x512 : Shape := ⟨2, ![512, 512]⟩
abbrev S8x1024 : Shape := ⟨2, ![8, 1024]⟩
abbrev S64x8x1024 : Shape := ⟨3, ![64, 8, 1024]⟩
abbrev S_ : Shape := ⟨0, ![]⟩

abbrev nBuf : Space → Nat
  | .hbm => 10
  | .vmem => 13
  | .smem => 0
  | _ => 0

abbrev bufTy : (tb : Table) → Fin (tcTables nBuf tb) → BufTy
  | .hbm, ⟨0, _⟩ => ⟨S512x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S512x4096, .f32⟩
  | .hbm, ⟨5, _⟩ => ⟨S64x1024, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .local _ .vmem, ⟨0, _⟩ => ⟨S512x4096, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x512, .f32⟩
  | .local _ .vmem, ⟨8, _⟩ => ⟨S512x512, .f32⟩
  | .local _ .vmem, ⟨9, _⟩ => ⟨S8x1024, .f32⟩
  | .local _ .vmem, ⟨10, _⟩ => ⟨S8x1024, .f32⟩
  | .local _ .vmem, ⟨11, _⟩ => ⟨S512x512, .f32⟩
  | .local _ .vmem, ⟨12, _⟩ => ⟨S8x1024, .f32⟩
  | _, _ => ⟨S512x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c1024_i32 : BitVec 32 := 1024#32
  let v22 : BitVec 32 := Scalar.muli arg1 c1024_i32
  v22
def k0_off1 (i : grid0.Coords) : Fin 2 → Nat :=
  let c0_7 : Index := 0#32
  let arg1 : BitVec 32 := BitVec.ofNat 32 (i 1).val
  let c1024_i32 : BitVec 32 := 1024#32
  let v22 : BitVec 32 := Scalar.muli arg1 c1024_i32
  let v23 : BitVec 32 := v22
  let v24 : Index := Scalar.indexCast v23
  ![0, v24.toNat]
def k0_cond2 (i : grid0.Coords) : BitVec 1 :=
  let arg1 : BitVec 32 := BitVec.ofNat 32 (i 1).val
  let c3_i32 : BitVec 32 := 3#32
  let v79 : BitVec 1 := Scalar.cmpi .eq arg1 c3_i32
  let v80 : BitVec 32 := Scalar.extui v79
  let c0_i32_31 : BitVec 32 := 0#32
  let v81 : BitVec 1 := Scalar.cmpi .ne v80 c0_i32_31
  v81

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S512x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  shapeCasts_S512x1024_S64x8x1024 : S512x1024.ShapeCasts S64x8x1024
  reduces_S64x8x1024_S8x1024 : S64x8x1024.Reduces [0] S8x1024
  reducesTo_S64x1024_S_d0_1 : S64x1024.ReducesTo [0, 1] S_
  h_S_ : 0 < S_.numel
  dot_S512x1024_S512x1024_S512x512_1_1_0_0_n_n_wf : DotDims.WF S512x1024 S512x1024 S512x512 [1] [1] [0] [0] [] []
  hrank0 : 0 < grid0.rank
  k0_mult1_dvd : ∀ i : grid0.Coords, 128 ∣ (k0_mult1 i).toNat
  k0_off1_inb : ∀ i : grid0.Coords, ∀ a, (k0_off1 i) a + S512x1024.size a ≤ S512x4096.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S512x4096.size a
  hwx0_0 : ∀ i : grid0.Coords, EltTy.bits .f32 = 32 ∨ (Rect.block (s := S512x4096) S512x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S4096x4096.size a
  hwx0_2 : ∀ i : grid0.Coords, EltTy.bits .f32 = 32 ∨ (Rect.block (s := S4096x4096) S512x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S4096x4096.size a
  hwx0_3 : ∀ i : grid0.Coords, EltTy.bits .f32 = 32 ∨ (Rect.block (s := S4096x4096) S512x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x512.size a ≤ S512x4096.size a
  hwx0_4 : ∀ i : grid0.Coords, EltTy.bits .f32 = 32 ∨ (Rect.block (s := S512x4096) S512x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S8x1024.size a ≤ S64x1024.size a
  hwx0_5 : ∀ i : grid0.Coords, EltTy.bits .f32 = 32 ∨ (Rect.block (s := S64x1024) S8x1024.size (cc0_transform_5 i) (hinb0_5 i)).WholeWords (EltTy.packing .f32)

variable [Facts₀]

def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S512x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S512x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S8x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S512x4096 : Shape := ⟨2, ![512, 4096]⟩
abbrev S4096x4096 : Shape := ⟨2, ![4096, 4096]⟩
abbrev S_ : Shape := ⟨0, ![]⟩

abbrev nBuf : Space → Nat
  | .hbm => 70
  | .vmem => 0
  | .smem => 0
  | _ => 0

abbrev bufTy : (tb : Table) → Fin (tcTables nBuf tb) → BufTy
  | .hbm, ⟨0, _⟩ => ⟨S512x4096, .f32⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .i1⟩
  | .hbm, ⟨10, _⟩ => ⟨S4096x4096, .f32⟩
  | .hbm, ⟨11, _⟩ => ⟨S4096x4096, .f32⟩
  | .hbm, ⟨12, _⟩ => ⟨S4096x4096, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S4096x4096, .f32⟩
  | .hbm, ⟨32, _⟩ => ⟨S_, .f32⟩
  | .hbm, ⟨33, _⟩ => ⟨S4096x4096, .f32⟩
  | .hbm, ⟨34, _⟩ => ⟨S4096x4096, .f32⟩
  | .hbm, ⟨35, _⟩ => ⟨S4096x4096, .f32⟩
  | .hbm, ⟨36, _⟩ => ⟨S4096x4096, .f32⟩
  | .hbm, ⟨37, _⟩ => ⟨S4096x4096, .f32⟩
  | .hbm, ⟨38, _⟩ => ⟨S_, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096x4096, .f32⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S_, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S_, .f32⟩
  | .hbm, ⟨54, _⟩ => ⟨S4096x4096, .f32⟩
  | .hbm, ⟨55, _⟩ => ⟨S4096x4096, .f32⟩
  | .hbm, ⟨56, _⟩ => ⟨S_, .f32⟩
  | .hbm, ⟨57, _⟩ => ⟨S4096x4096, .f32⟩
  | .hbm, ⟨58, _⟩ => ⟨S4096x4096, .f32⟩
  | .hbm, ⟨59, _⟩ => ⟨S_, .f32⟩
  | .hbm, ⟨60, _⟩ => ⟨S4096x4096, .f32⟩
  | .hbm, ⟨61, _⟩ => ⟨S4096x4096, .f32⟩
  | .hbm, ⟨62, _⟩ => ⟨S4096x4096, .f32⟩
  | .hbm, ⟨63, _⟩ => ⟨S4096x4096, .f32⟩
  | .hbm, ⟨64, _⟩ => ⟨S4096x4096, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S512x4096, .f32⟩
  | _, _ => ⟨S512x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_v6 : Ref sig .tc := ⟨.hbm, 11, rfl⟩
abbrev main_call0_v7 : Ref sig .tc := ⟨.hbm, 12, rfl⟩
abbrev main_call0_v8 : Ref sig .tc := ⟨.hbm, 13, rfl⟩
abbrev main_call0_v9 : Ref sig .tc := ⟨.hbm, 14, rfl⟩
abbrev main_call0_v10 : Ref sig .tc := ⟨.hbm, 15, rfl⟩
abbrev main_call0_v11 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_cst : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_cst_0 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_1 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_2 : Ref sig .tc := ⟨.hbm, 38, rfl⟩
abbrev main_v18 : Ref sig .tc := ⟨.hbm, 39, rfl⟩
abbrev main_v19 : Ref sig .tc := ⟨.hbm, 40, rfl⟩
abbrev main_cst_3 : Ref sig .tc := ⟨.hbm, 41, rfl⟩
abbrev main_v20 : Ref sig .tc := ⟨.hbm, 42, rfl⟩
abbrev main_v21 : Ref sig .tc := ⟨.hbm, 43, rfl⟩
abbrev main_cst_4 : Ref sig .tc := ⟨.hbm, 44, rfl⟩
abbrev main_v22 : Ref sig .tc := ⟨.hbm, 45, rfl⟩
abbrev main_v23 : Ref sig .tc := ⟨.hbm, 46, rfl⟩
abbrev main_cst_5 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_cst_6 : Ref sig .tc := ⟨.hbm, 53, rfl⟩
abbrev main_v29 : Ref sig .tc := ⟨.hbm, 54, rfl⟩
abbrev main_v30 : Ref sig .tc := ⟨.hbm, 55, rfl⟩
abbrev main_cst_7 : Ref sig .tc := ⟨.hbm, 56, rfl⟩
abbrev main_v31 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_9 : Ref sig .tc := ⟨.hbm, 65, rfl⟩
abbrev main_v38 : Ref sig .tc := ⟨.hbm, 66, rfl⟩
abbrev main_cst_10 : Ref sig .tc := ⟨.hbm, 67, rfl⟩
abbrev main_v39 : Ref sig .tc := ⟨.hbm, 68, rfl⟩
abbrev main_v40 : Ref sig .tc := ⟨.hbm, 69, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  dot_S512x4096_S4096x4096_S512x4096_1_1_0_0_n_n_wf : DotDims.WF S512x4096 S4096x4096 S512x4096 [1] [1] [0] [0] [] []

variable [Facts₀]

def dot_S512x4096_S4096x4096_S512x4096_1_1_0_0_n_n : DotDims S512x4096 S4096x4096 S512x4096 where
  lhsContracting := [1]
  rhsContracting := [1]
  lhsNonContracting := [0]
  rhsNonContracting := [0]
  lhsBatch := []
  rhsBatch := []
  wf := dot_S512x4096_S4096x4096_S512x4096_1_1_0_0_n_n_wf

class Facts : Prop extends Facts₀ where

variable [Facts]
-- ==== Proof.KBlocks.lean ====
import proofs.«136775_j5574867550300_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.KBlocks

open Cert.KernelIdeal Cert.KernelIdeal.Gen

variable {F : FTy → Type} [FloatOps F]
variable (m : (ℓ : Loc nD τ sig) → Buf (Elt F) ℓ) (ρ : Dev nD → PrngReg)

/-! Where the blocks sit. Point t of the 8 × 4 grid is (o, j) = (t / 4, t % 4). The three weight-shaped inputs are read through
    block (o, j) of 512 rows and 1024 columns; the activations x are resident whole; the product's block is (0, o) and the
    block of partial sums (o, 0). -/

theorem N32 : cfg0.N = 32 := N_0

/-- The block indices of every window at every point, decided over the grid. -/
theorem idx_facts : ∀ t : Fin cfg0.N,
    win0_0.index t (0 : Fin 2) = 0 ∧ win0_0.index t (1 : Fin 2) = 0
    ∧ win0_1.index t (0 : Fin 2) = t.val / 4 ∧ win0_1.index t (1 : Fin 2) = t.val % 4
    ∧ win0_2.index t (0 : Fin 2) = t.val / 4 ∧ win0_2.index t (1 : Fin 2) = t.val % 4
    ∧ win0_3.index t (0 : Fin 2) = t.val / 4 ∧ win0_3.index t (1 : Fin 2) = t.val % 4
    ∧ win0_4.index t (0 : Fin 2) = 0 ∧ win0_4.index t (1 : Fin 2) = t.val / 4
    ∧ win0_5.index t (0 : Fin 2) = t.val / 4 ∧ win0_5.index t (1 : Fin 2) = 0 :=
  (by decide +kernel : ∀ t : Fin grid0.N, _)

/-- The row tile o = t / 4 of point t. -/
def pto (t : Fin cfg0.N) : Fin 8 := ⟨t.val / 4, by have := t.isLt; have h : cfg0.N = 32 := N_0; omega⟩
/-- The column tile j = t % 4 of point t. -/
def ptj (t : Fin cfg0.N) : Fin 4 := ⟨t.val % 4, Nat.mod_lt _ (by decide)⟩
/-- Row r of row tile o, among the 4096 rows. -/
def wrow (o : Fin 8) (r : Fin 512) : Fin 4096 := ⟨o.val * 512 + r.val, by have := o.isLt; have := r.isLt; omega⟩
/-- Column l of column tile j, among the 4096 columns. -/
def wcol (j : Fin 4) (l : Fin 1024) : Fin 4096 := ⟨j.val * 1024 + l.val, by have := j.isLt; have := l.isLt; omega⟩
/-- Row s of the o-th group of eight rows, among the 64 rows of partial sums. -/
def prow (o : Fin 8) (s : Fin 8) : Fin 64 := ⟨o.val * 8 + s.val, by have := o.isLt; have := s.isLt; omega⟩

/-- The resident block of x is x itself. -/
theorem iblk0_apply (c : Dev nD) (t : Fin cfg0.N) (b : Fin 512) (k : Fin 4096) :
    (iblk m c 0 t : Vec F S512x4096 .f32) (ix2 b k) = V m c main_arg0 (ix2 b k) := by
  obtain ⟨h0, h1, -⟩ := idx_facts t
  unfold iblk
  rw [View.read_apply]
  show V m c main_arg0 _ = V m c main_arg0 _
  refine congrArg (V m c main_arg0) ?_
  funext a
  apply Fin.ext
  match a with
  | ⟨0, _⟩ => show win0_0.index t 0 * 512 + 1 * b.val = b.val; rw [h0]; omega
  | ⟨1, _⟩ => show win0_0.index t 1 * 4096 + 1 * k.val = k.val; rw [h1]; omega

/-- Entry (r, l) of the mu block at point t is mu at row o·512 + r, column j·1024 + l. -/
theorem iblk1_apply (c : Dev nD) (t : Fin cfg0.N) (r : Fin 512) (l : Fin 1024) :
    (iblk m c 1 t : Vec F S512x1024 .f32) (ix2 r l) = V m c main_arg1 (ix2 (wrow (pto t) r) (wcol (ptj t) l)) := by
  obtain ⟨-, -, h0, h1, -⟩ := idx_facts t
  unfold iblk
  rw [View.read_apply]
  show V m c main_arg1 _ = V m c main_arg1 _
  refine congrArg (V m c main_arg1) ?_
  funext a
  apply Fin.ext
  match a with
  | ⟨0, _⟩ => show win0_1.index t 0 * 512 + 1 * r.val = (t.val / 4) * 512 + r.val; rw [h0]; omega
  | ⟨1, _⟩ => show win0_1.index t 1 * 1024 + 1 * l.val = (t.val % 4) * 1024 + l.val; rw [h1]; omega

/-- The same for the sigma block. -/
theorem iblk2_apply (c : Dev nD) (t : Fin cfg0.N) (r : Fin 512) (l : Fin 1024) :
    (iblk m c 2 t : Vec F S512x1024 .f32) (ix2 r l) = V m c main_arg2 (ix2 (wrow (pto t) r) (wcol (ptj t) l)) := by
  obtain ⟨-, -, -, -, h0, h1, -⟩ := idx_facts t
  unfold iblk
  rw [View.read_apply]
  show V m c main_arg2 _ = V m c main_arg2 _
  refine congrArg (V m c main_arg2) ?_
  funext a
  apply Fin.ext
  match a with
  | ⟨0, _⟩ => show win0_2.index t 0 * 512 + 1 * r.val = (t.val / 4) * 512 + r.val; rw [h0]; omega
  | ⟨1, _⟩ => show win0_2.index t 1 * 1024 + 1 * l.val = (t.val % 4) * 1024 + l.val; rw [h1]; omega

/-- The same for the eps block. -/
theorem iblk3_apply (c : Dev nD) (t : Fin cfg0.N) (r : Fin 512) (l : Fin 1024) :
    (iblk m c 3 t : Vec F S512x1024 .f32) (ix2 r l) = V m c main_arg3 (ix2 (wrow (pto t) r) (wcol (ptj t) l)) := by
  obtain ⟨-, -, -, -, -, -, h0, h1, -⟩ := idx_facts t
  unfold iblk
  rw [View.read_apply]
  show V m c main_arg3 _ = V m c main_arg3 _
  refine congrArg (V m c main_arg3) ?_
  funext a
  apply Fin.ext
  match a with
  | ⟨0, _⟩ => show win0_3.index t 0 * 512 + 1 * r.val = (t.val / 4) * 512 + r.val; rw [h0]; omega
  | ⟨1, _⟩ => show win0_3.index t 1 * 1024 + 1 * l.val = (t.val % 4) * 1024 + l.val; rw [h1]; omega

end Cert.KernelIdeal.KBlocks

end
-- ==== Proof.KPieces.lean ====
/-
  What each control case of the kernel body leaves in its two carried scratch buffers (the matmul accumulator
  f32[512,512] and the KL accumulator f32[8,1024]) and, in the copying case, in the two output blocks — each as one
  payload term of the body's arithmetic over the blocks the body reads (mu, sigma, eps, the 1024 loaded columns of x,
  and the scratch contents the point before left).

    case B (neither branch taken): one store covers each scratch, so the scratch ends at that store's payload:
      accumulator + (x columns)·(sampled weights)ᵀ, and KL accumulator + the sublane-grouped partial sums;
    case C (copy-out branch taken): the same two stores, then each scratch is loaded whole and stored whole into its
      output block: a whole load after one covering store reads that store's payload;
    case A (zeroing branch taken): the zero block is stored first, the accumulate's load reads it back whole, and the
      later covering store hides the zero store: the scratch ends at the accumulate's payload over the zero block.

  Every whole-buffer access goes through the unit rectangle at offsets (0, 0) of the buffer's own sizes; the one
  partial access is the load of 1024 columns of x at column offset i₁·1024 (`xcols`, read by coordinates in
  `xcols_apply`). Generic in the float values.
-/
import proofs.«136775_j5574867550300_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.KernelIdeal.KValue

open Cert.KernelIdeal Cert.KernelIdeal.Gen

variable {F : FTy → Type} [FloatOps F]

/-- The two zero offsets of a whole-buffer access, as the constant-zero offset function. -/
theorem hz : (![0, 0] : Fin 2 → Nat) = fun _ => 0 := funext fun a => by fin_cases a <;> rfl

/-- The 1024 columns of the resident x block that the body loads at grid coordinates i (columns i₁·1024 … i₁·1024+1023). -/
def xcols (i : grid0.Coords) (x0 : Vec F S512x4096 .f32) : Vec F S512x1024 .f32 :=
  View.ld x0 (Rect.unit (s := S512x4096) (k0_off1 i) S512x1024.size (k0_off1_inb i))

/-- The load's offsets over the grid, in closed form: row offset 0, column offset (t mod 4)·1024 at point t. -/
theorem off_facts : ∀ t : Fin cfg0.N, k0_off1 (grid0.coords t) 0 = 0 ∧ k0_off1 (grid0.coords t) 1 = (t.val % 4) * 1024 :=
  (by decide +kernel : ∀ t : Fin grid0.N, k0_off1 (grid0.coords t) 0 = 0 ∧ k0_off1 (grid0.coords t) 1 = (t.val % 4) * 1024)

/-- The loaded x columns at point t, by coordinates: row b, column k of the load is row b, column (t mod 4)·1024 + k of x. -/
theorem xcols_apply (t : Fin cfg0.N) (x0 : Vec F S512x4096 .f32) (b : Fin 512) (k : Fin 1024) :
    xcols (grid0.coords t) x0 (ix2 b k) = x0 (ix2 b ⟨(t.val % 4) * 1024 + k.val, by have := k.isLt; have := Nat.mod_lt t.val (show 0 < 4 by decide); omega⟩) := by
  unfold xcols
  show x0 _ = x0 _
  congr 1
  funext a
  apply Fin.ext
  match a with
  | ⟨0, _⟩ => show k0_off1 (grid0.coords t) 0 + 1 * b.val = b.val; rw [(off_facts t).1]; omega
  | ⟨1, _⟩ => show k0_off1 (grid0.coords t) 1 + 1 * k.val = (t.val % 4) * 1024 + k.val; rw [(off_facts t).2]; omega

/-! ## Case B (neither branch taken): one covering store per carried scratch -/

/-- Case B leaves in the matmul accumulator its one covering store's payload: the accumulator it held plus the
    product of the loaded x columns with the sampled weight block. -/
theorem sB0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S8x1024 .f32) (harg7 : arg7.IsWhole) (arg8 : Memref sig .tc .vmem S512x512 .f32) (harg8 : arg8.IsWhole) (arg9 : Memref sig .tc .vmem S8x1024 .f32) (harg9 : arg9.IsWhole) (hc0 : ¬cond0_0 i) (hc1 : ¬cond0_1 i) (x0 : Vec F S512x4096 .f32) (x1 x2 x3 : Vec F S512x1024 .f32) (xs0 : Vec F S512x512 .f32) (xs1 : Vec F S8x1024 .f32) :
    sout0_B_0 c i arg2 harg2 arg3 harg3 arg4 harg4 arg5 harg5 arg6 harg6 arg7 harg7 arg8 harg8 arg9 harg9 hc0 hc1 x0 x1 x2 x3 xs0 xs1 = k0_pay5 x1 x2 x3 (xcols i x0) xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1)]
  unfold kernelRun0_B
  dsimp only
  rw [View.canon_unit_zero hz]
  unfold xcols
  simp only [View.readAt_eq_ld, harg2.read_unread, harg3.read_unread, harg4.read_unread, harg5.read_unread, harg8.read_unread, harg9.read_unread,
    View.ld_unit_zero (S := S512x1024) hz, View.ld_unit_zero (S := S512x512) hz, View.ld_unit_zero (S := S8x1024) hz]

/-- Case B leaves in the KL accumulator its one covering store's payload: the accumulator it held plus the
    sublane-grouped partial sums of the pointwise KL term. -/
theorem sB1 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S8x1024 .f32) (harg7 : arg7.IsWhole) (arg8 : Memref sig .tc .vmem S512x512 .f32) (harg8 : arg8.IsWhole) (arg9 : Memref sig .tc .vmem S8x1024 .f32) (harg9 : arg9.IsWhole) (hc0 : ¬cond0_0 i) (hc1 : ¬cond0_1 i) (x0 : Vec F S512x4096 .f32) (x1 x2 x3 : Vec F S512x1024 .f32) (xs0 : Vec F S512x512 .f32) (xs1 : Vec F S8x1024 .f32) :
    sout0_B_1 c i arg2 harg2 arg3 harg3 arg4 harg4 arg5 harg5 arg6 harg6 arg7 harg7 arg8 harg8 arg9 harg9 hc0 hc1 x0 x1 x2 x3 xs0 xs1 = k0_pay7 (k0_pay3 x2) (k0_pay4 x1 x2 x3) (k0_pay6 x1 x2 x3) xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1)]
  unfold kernelRun0_B
  dsimp only
  sl_unfold_run_names
  rw [View.canon_unit_zero hz]
  simp only [View.readAt_eq_ld, harg2.read_unread, harg3.read_unread, harg4.read_unread, harg5.read_unread, harg8.read_unread, harg9.read_unread,
    View.ld_unit_zero (S := S512x1024) hz, View.ld_unit_zero (S := S512x512) hz, View.ld_unit_zero (S := S8x1024) hz]

/-! ## Case C (last step of a row of the grid): the same two stores, then each scratch copied to its output block -/

/-- Case C leaves in the matmul accumulator the same payload as case B. -/
theorem sC0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S8x1024 .f32) (harg7 : arg7.IsWhole) (arg8 : Memref sig .tc .vmem S512x512 .f32) (harg8 : arg8.IsWhole) (arg9 : Memref sig .tc .vmem S8x1024 .f32) (harg9 : arg9.IsWhole) (hc0 : ¬cond0_0 i) (hc1 : cond0_1 i) (x0 : Vec F S512x4096 .f32) (x1 x2 x3 : Vec F S512x1024 .f32) (xs0 : Vec F S512x512 .f32) (xs1 : Vec F S8x1024 .f32) :
    sout0_C_0 c i arg2 harg2 arg3 harg3 arg4 harg4 arg5 harg5 arg6 harg6 arg7 harg7 arg8 harg8 arg9 harg9 hc0 hc1 x0 x1 x2 x3 xs0 xs1 = k0_pay5 x1 x2 x3 (xcols i x0) xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_run_names
  rw [View.canon_unit_zero hz]
  unfold xcols
  simp only [View.readAt_eq_ld, harg2.read_unread, harg3.read_unread, harg4.read_unread, harg5.read_unread, harg8.read_unread, harg9.read_unread,
    View.ld_unit_zero (S := S512x1024) hz, View.ld_unit_zero (S := S512x512) hz, View.ld_unit_zero (S := S8x1024) hz]

/-- Case C leaves in the KL accumulator the same payload as case B. -/
theorem sC1 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S8x1024 .f32) (harg7 : arg7.IsWhole) (arg8 : Memref sig .tc .vmem S512x512 .f32) (harg8 : arg8.IsWhole) (arg9 : Memref sig .tc .vmem S8x1024 .f32) (harg9 : arg9.IsWhole) (hc0 : ¬cond0_0 i) (hc1 : cond0_1 i) (x0 : Vec F S512x4096 .f32) (x1 x2 x3 : Vec F S512x1024 .f32) (xs0 : Vec F S512x512 .f32) (xs1 : Vec F S8x1024 .f32) :
    sout0_C_1 c i arg2 harg2 arg3 harg3 arg4 harg4 arg5 harg5 arg6 harg6 arg7 harg7 arg8 harg8 arg9 harg9 hc0 hc1 x0 x1 x2 x3 xs0 xs1 = k0_pay7 (k0_pay3 x2) (k0_pay4 x1 x2 x3) (k0_pay6 x1 x2 x3) xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_run_names
  rw [View.canon_unit_zero hz]
  simp only [View.readAt_eq_ld, harg2.read_unread, harg3.read_unread, harg4.read_unread, harg5.read_unread, harg8.read_unread, harg9.read_unread,
    View.ld_unit_zero (S := S512x1024) hz, View.ld_unit_zero (S := S512x512) hz, View.ld_unit_zero (S := S8x1024) hz]

/-- Case C copies the matmul accumulator it has just stored into the first output's block: the block holds that
    store's payload (the accumulator is read back whole after one covering store). -/
theorem oC4 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S8x1024 .f32) (harg7 : arg7.IsWhole) (arg8 : Memref sig .tc .vmem S512x512 .f32) (harg8 : arg8.IsWhole) (arg9 : Memref sig .tc .vmem S8x1024 .f32) (harg9 : arg9.IsWhole) (hc0 : ¬cond0_0 i) (hc1 : cond0_1 i) (x0 : Vec F S512x4096 .f32) (x1 x2 x3 : Vec F S512x1024 .f32) (xs0 : Vec F S512x512 .f32) (xs1 : Vec F S8x1024 .f32) :
    out0_C_4 c i arg2 harg2 arg3 harg3 arg4 harg4 arg5 harg5 arg6 harg6 arg7 harg7 arg8 harg8 arg9 harg9 hc0 hc1 x0 x1 x2 x3 xs0 xs1 = k0_pay5 x1 x2 x3 (xcols i x0) xs0 := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_run_names
  rw [View.canon_unit_zero hz, View.readCov_unit_zero (S := S512x512) _ hz]
  unfold xcols
  simp only [View.readAt_eq_ld, harg2.read_unread, harg3.read_unread, harg4.read_unread, harg5.read_unread, harg8.read_unread, harg9.read_unread,
    View.ld_unit_zero (S := S512x1024) hz, View.ld_unit_zero (S := S512x512) hz, View.ld_unit_zero (S := S8x1024) hz]

/-- Case C copies the KL accumulator it has just stored into the second output's block. -/
theorem oC5 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S8x1024 .f32) (harg7 : arg7.IsWhole) (arg8 : Memref sig .tc .vmem S512x512 .f32) (harg8 : arg8.IsWhole) (arg9 : Memref sig .tc .vmem S8x1024 .f32) (harg9 : arg9.IsWhole) (hc0 : ¬cond0_0 i) (hc1 : cond0_1 i) (x0 : Vec F S512x4096 .f32) (x1 x2 x3 : Vec F S512x1024 .f32) (xs0 : Vec F S512x512 .f32) (xs1 : Vec F S8x1024 .f32) :
    out0_C_5 c i arg2 harg2 arg3 harg3 arg4 harg4 arg5 harg5 arg6 harg6 arg7 harg7 arg8 harg8 arg9 harg9 hc0 hc1 x0 x1 x2 x3 xs0 xs1 = k0_pay7 (k0_pay3 x2) (k0_pay4 x1 x2 x3) (k0_pay6 x1 x2 x3) xs1 := by
  unfold out0_C_5
  rw [View.read_writes_eq_canon _ _ _ (cover0_C_5 c i arg2 harg2 arg3 harg3 arg4 harg4 arg5 harg5 arg6 harg6 arg7 harg7 arg8 harg8 arg9 harg9 hc0 hc1 x0 x1 x2 x3 xs0 xs1)]
  unfold kernelRun0_C
  dsimp only
  sl_unfold_run_names
  rw [View.canon_unit_zero hz, View.readCov_unit_zero (S := S8x1024) _ hz]
  simp only [View.readAt_eq_ld, harg2.read_unread, harg3.read_unread, harg4.read_unread, harg5.read_unread, harg8.read_unread, harg9.read_unread,
    View.ld_unit_zero (S := S512x1024) hz, View.ld_unit_zero (S := S512x512) hz, View.ld_unit_zero (S := S8x1024) hz]

/-! ## Case A (first step of a row of the grid): each scratch is zeroed, read back, and accumulated into -/

/-- Case A leaves in the matmul accumulator the accumulate's payload over the zero block it has just stored: the
    zero store is covered by the later store, and the accumulate's load reads that zero block back. -/
theorem sA0 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S8x1024 .f32) (harg7 : arg7.IsWhole) (arg8 : Memref sig .tc .vmem S512x512 .f32) (harg8 : arg8.IsWhole) (arg9 : Memref sig .tc .vmem S8x1024 .f32) (harg9 : arg9.IsWhole) (hc0 : cond0_0 i) (hc1 : ¬cond0_1 i) (x0 : Vec F S512x4096 .f32) (x1 x2 x3 : Vec F S512x1024 .f32) :
    sout0_A_0 c i arg2 harg2 arg3 harg3 arg4 harg4 arg5 harg5 arg6 harg6 arg7 harg7 arg8 harg8 arg9 harg9 hc0 hc1 x0 x1 x2 x3 = k0_pay5 x1 x2 x3 (xcols i x0) (k0_pay1 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_run_names
  rw [View.canon_cons_unit_zero (S := S512x512) hz, View.readCov_unit_zero (S := S512x512) _ hz]
  unfold xcols
  simp only [View.readAt_eq_ld, harg2.read_unread, harg3.read_unread, harg4.read_unread, harg5.read_unread, harg8.read_unread, harg9.read_unread,
    View.ld_unit_zero (S := S512x1024) hz, View.ld_unit_zero (S := S512x512) hz, View.ld_unit_zero (S := S8x1024) hz]

/-- Case A leaves in the KL accumulator the accumulate's payload over the zero block it has just stored. -/
theorem sA1 (c : Dev nD) (i : grid0.Coords) (arg2 : Memref sig .tc .vmem S512x4096 .f32) (harg2 : arg2.IsWhole) (arg3 : Memref sig .tc .vmem S512x1024 .f32) (harg3 : arg3.IsWhole) (arg4 : Memref sig .tc .vmem S512x1024 .f32) (harg4 : arg4.IsWhole) (arg5 : Memref sig .tc .vmem S512x1024 .f32) (harg5 : arg5.IsWhole) (arg6 : Memref sig .tc .vmem S512x512 .f32) (harg6 : arg6.IsWhole) (arg7 : Memref sig .tc .vmem S8x1024 .f32) (harg7 : arg7.IsWhole) (arg8 : Memref sig .tc .vmem S512x512 .f32) (harg8 : arg8.IsWhole) (arg9 : Memref sig .tc .vmem S8x1024 .f32) (harg9 : arg9.IsWhole) (hc0 : cond0_0 i) (hc1 : ¬cond0_1 i) (x0 : Vec F S512x4096 .f32) (x1 x2 x3 : Vec F S512x1024 .f32) :
    sout0_A_1 c i arg2 harg2 arg3 harg3 arg4 harg4 arg5 harg5 arg6 harg6 arg7 harg7 arg8 harg8 arg9 harg9 hc0 hc1 x0 x1 x2 x3 = k0_pay7 (k0_pay3 x2) (k0_pay4 x1 x2 x3) (k0_pay6 x1 x2 x3) (k0_pay2 (F := F)) := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_run_names
  rw [View.canon_cons_unit_zero (S := S8x1024) hz, View.readCov_unit_zero (S := S8x1024) _ hz]
  simp only [View.readAt_eq_ld, harg2.read_unread, harg3.read_unread, harg4.read_unread, harg5.read_unread, harg8.read_unread, harg9.read_unread,
    View.ld_unit_zero (S := S512x1024) hz, View.ld_unit_zero (S := S512x512) hz, View.ld_unit_zero (S := S8x1024) hz]

end Cert.KernelIdeal.KValue

end
-- ==== Proof.KPay.lean ====
/-
  The kernel body's arithmetic read at an index, over the extended reals, against the reference's stages.

  Pointwise part: the softplus max(σ, 0) + log1p(exp(-|σ|)), the sampled weight w = μ + softplus(σ)·ε and the integrand are,
  element by element, the reference's stages at any array index holding the same three values: a not-equal test of a value
  with itself is false whether ordered or unordered, subtracting from zero is negation, and the device and host forms of
  division, exp, log, log1p and the absolute value are one function each.

  Accumulating part: the product payload at (b, o) is the loaded accumulator plus the sum over the block's 1024 columns of
  x(b, k) · w(o, k) (a contraction into a zero accumulator; the change of float format before it is the identity); the
  partial-sum payload at (s, l) is the loaded accumulator plus the sum over the 64 groups g of the integrand at block row
  g·8 + s (the reshape of 512 rows into 64 groups of 8 keeps the row-major position, and the reduction runs over the groups).
-/
import proofs.«136775_j5574867550300_2_alg».proof.Proof.Gen.KernelIdeal.Skeleton
import proofs.«136775_j5574867550300_2_alg».proof.Proof.Gen.ReferenceIdeal.Read
import Idealize.ShloMosaic.PureOps.Ideal.Laws
import Idealize.ShloMosaic.Lib.ValueIdx
import Idealize.ShloMosaic.Lib.Pipeline.Value

noncomputable section

open Idealize.ShloMosaic Idealize.ShloMosaic.ValueIdx

namespace Cert.KernelIdeal.KPay

open Cert.KernelIdeal Cert.KernelIdeal.Gen

/-- The f32 zero word is the extended real 0, so subtracting from it is negation. -/
theorem zero_word_sub (a : Ideal .f32) :
    FloatOps.subf (Scalar.ofBits (F := Ideal) .f32 0x00000000#32) a = FloatOps.hostNegf a := by
  show Ideal.ofBits .f32 0x00000000#32 - a = -a
  rw [Ideal.ofBits_zero_f32, zero_sub]

/-- On the extended reals the ordered and the unordered "not equal" are the same test. -/
theorem cmp_one_une (a b : Ideal .f32) : FloatOps.cmpf .one a b = FloatOps.cmpf .une a b := rfl

/-- The kernel's softplus of one element. -/
def spK (x : Ideal .f32) : Ideal .f32 :=
  Scalar.select (FloatOps.cmpf .one (FloatOps.subf x (Scalar.ofBits .f32 0x00000000#32)) (FloatOps.subf x (Scalar.ofBits .f32 0x00000000#32)))
    (FloatOps.addf x (Scalar.ofBits .f32 0x00000000#32))
    (FloatOps.addf (FloatOps.maximumf x (Scalar.ofBits .f32 0x00000000#32))
      (FloatOps.log1p (FloatOps.exp (FloatOps.subf (Scalar.ofBits .f32 0x00000000#32) (FloatOps.absf (FloatOps.subf x (Scalar.ofBits .f32 0x00000000#32)))))))

theorem pay3_apply (v4 : Vec Ideal S512x1024 .f32) (i : S512x1024.Idx) :
    k0_pay3 (F := Ideal) v4 i = spK (v4 i) := rfl

theorem pay4_apply (v3 v4 v5 : Vec Ideal S512x1024 .f32) (i : S512x1024.Idx) :
    k0_pay4 (F := Ideal) v3 v4 v5 i = FloatOps.addf (v3 i) (FloatOps.mulf (spK (v4 i)) (v5 i)) := rfl

/-- The kernel's softplus of an element is the reference's softplus stage at any array index holding the same value. -/
theorem spK_ref (σ : Cert.ReferenceIdeal.S4096x4096.Idx → Ideal .f32) (j : Cert.ReferenceIdeal.S4096x4096.Idx) :
    spK (σ j) = Cert.ReferenceIdeal.Read.val_main_v0 (F := Ideal) σ j := by
  simp only [Cert.ReferenceIdeal.Read.val_main_v0_apply, Cert.ReferenceIdeal.Read.val_main_call0_v4_apply,
    Cert.ReferenceIdeal.Read.val_main_call0_v6_apply, Cert.ReferenceIdeal.Read.val_main_call0_v11_apply,
    Cert.ReferenceIdeal.Read.val_main_call0_v1_apply, Cert.ReferenceIdeal.Read.val_main_call0_v10_apply,
    Cert.ReferenceIdeal.Read.val_main_call0_v9_apply, Cert.ReferenceIdeal.Read.val_main_call0_v8_apply,
    Cert.ReferenceIdeal.Read.val_main_call0_v7_apply, Cert.ReferenceIdeal.Read.val_main_call0_v3_apply,
    Cert.ReferenceIdeal.Read.val_main_call0_v0_apply, Cert.ReferenceIdeal.Read.val_main_call0_v2_apply,
    Cert.ReferenceIdeal.Read.val_main_call0_v5_apply, Cert.ReferenceIdeal.Read.val_main_call0_cst_apply]
  unfold spK
  rw [zero_word_sub, cmp_one_une]
  rfl

/-- The kernel's sampled weight at a block entry is the reference's weight stage at the array index the entry comes from. -/
theorem pay4_ref (v3 v4 v5 : Vec Ideal S512x1024 .f32) (μ σ ε : Cert.ReferenceIdeal.S4096x4096.Idx → Ideal .f32)
    (i : S512x1024.Idx) (j : Cert.ReferenceIdeal.S4096x4096.Idx)
    (h3 : v3 i = μ j) (h4 : v4 i = σ j) (h5 : v5 i = ε j) :
    k0_pay4 (F := Ideal) v3 v4 v5 i = Cert.ReferenceIdeal.Read.val_main_v2 (F := Ideal) μ σ ε j := by
  rw [pay4_apply, h3, h4, h5, spK_ref]
  rfl

/-- The kernel's KL integrand of one element, from the softplus value s, the sampled weight w and q = -(μ - w)². -/
def dK (s w q : Ideal .f32) : Ideal .f32 :=
  FloatOps.subf
    (FloatOps.subf (FloatOps.divf q (FloatOps.mulf (Scalar.ofBits .f32 0x40000000#32) s))
      (FloatOps.mulf (Scalar.ofBits .f32 0x3F000000#32) (FloatOps.log s)))
    (FloatOps.log (FloatOps.addf
      (FloatOps.mulf (Scalar.ofBits .f32 0x3F000000#32)
        (FloatOps.divf (FloatOps.mulf (Scalar.ofBits .f32 0x3ECC4F46#32)
          (FloatOps.exp (FloatOps.subf (Scalar.ofBits .f32 0x00000000#32)
            (FloatOps.mulf (FloatOps.subf (Scalar.ofBits .f32 0x00000000#32) w) (FloatOps.subf (Scalar.ofBits .f32 0x00000000#32) w)))))
          (Scalar.ofBits .f32 0x40000000#32)))
      (FloatOps.mulf (Scalar.ofBits .f32 0x3F000000#32)
        (FloatOps.divf (FloatOps.mulf (Scalar.ofBits .f32 0x407F6317#32)
          (FloatOps.exp (FloatOps.subf (Scalar.ofBits .f32 0x00000000#32)
            (FloatOps.mulf (FloatOps.subf (Scalar.ofBits .f32 0x00000000#32) w) (FloatOps.subf (Scalar.ofBits .f32 0x00000000#32) w)))))
          (Scalar.ofBits .f32 0x3CA3D70A#32)))))

theorem pay6_apply (v3 v4 v5 : Vec Ideal S512x1024 .f32) (i : S512x1024.Idx) :
    k0_pay6 (F := Ideal) v3 v4 v5 i
      = FloatOps.subf (Scalar.ofBits .f32 0x00000000#32)
          (FloatOps.mulf (FloatOps.subf (v3 i) (k0_pay4 (F := Ideal) v3 v4 v5 i)) (FloatOps.subf (v3 i) (k0_pay4 (F := Ideal) v3 v4 v5 i))) := rfl

/-- The kernel's integrand, fed the reference's softplus and weight stages at an array index, is the reference's integrand stage there. -/
theorem dK_ref (μ σ ε : Cert.ReferenceIdeal.S4096x4096.Idx → Ideal .f32) (j : Cert.ReferenceIdeal.S4096x4096.Idx) :
    dK (Cert.ReferenceIdeal.Read.val_main_v0 (F := Ideal) σ j) (Cert.ReferenceIdeal.Read.val_main_v2 (F := Ideal) μ σ ε j)
        (FloatOps.subf (Scalar.ofBits .f32 0x00000000#32)
          (FloatOps.mulf (FloatOps.subf (μ j) (Cert.ReferenceIdeal.Read.val_main_v2 (F := Ideal) μ σ ε j))
            (FloatOps.subf (μ j) (Cert.ReferenceIdeal.Read.val_main_v2 (F := Ideal) μ σ ε j))))
      = Cert.ReferenceIdeal.Read.val_main_v37 (F := Ideal) μ σ ε j := by
  simp only [Cert.ReferenceIdeal.Read.val_main_v37_apply, Cert.ReferenceIdeal.Read.val_main_v12_apply,
    Cert.ReferenceIdeal.Read.val_main_v36_apply, Cert.ReferenceIdeal.Read.val_main_v8_apply,
    Cert.ReferenceIdeal.Read.val_main_v11_apply, Cert.ReferenceIdeal.Read.val_main_v5_apply,
    Cert.ReferenceIdeal.Read.val_main_v7_apply, Cert.ReferenceIdeal.Read.val_main_v4_apply,
    Cert.ReferenceIdeal.Read.val_main_v3_apply, Cert.ReferenceIdeal.Read.val_main_v6_apply,
    Cert.ReferenceIdeal.Read.val_main_cst_apply, Cert.ReferenceIdeal.Read.val_main_v9_apply,
    Cert.ReferenceIdeal.Read.val_main_v10_apply, Cert.ReferenceIdeal.Read.val_main_cst_0_apply,
    Cert.ReferenceIdeal.Read.val_main_v35_apply, Cert.ReferenceIdeal.Read.val_main_v23_apply,
    Cert.ReferenceIdeal.Read.val_main_v34_apply, Cert.ReferenceIdeal.Read.val_main_v22_apply,
    Cert.ReferenceIdeal.Read.val_main_cst_4_apply, Cert.ReferenceIdeal.Read.val_main_v21_apply,
    Cert.ReferenceIdeal.Read.val_main_v19_apply, Cert.ReferenceIdeal.Read.val_main_v20_apply,
    Cert.ReferenceIdeal.Read.val_main_cst_3_apply, Cert.ReferenceIdeal.Read.val_main_v18_apply,
    Cert.ReferenceIdeal.Read.val_main_cst_2_apply, Cert.ReferenceIdeal.Read.val_main_v17_apply,
    Cert.ReferenceIdeal.Read.val_main_v16_apply, Cert.ReferenceIdeal.Read.val_main_v15_apply,
    Cert.ReferenceIdeal.Read.val_main_v14_apply, Cert.ReferenceIdeal.Read.val_main_v13_apply,
    Cert.ReferenceIdeal.Read.val_main_cst_1_apply, Cert.ReferenceIdeal.Read.val_main_v33_apply,
    Cert.ReferenceIdeal.Read.val_main_cst_8_apply, Cert.ReferenceIdeal.Read.val_main_v32_apply,
    Cert.ReferenceIdeal.Read.val_main_v30_apply, Cert.ReferenceIdeal.Read.val_main_v31_apply,
    Cert.ReferenceIdeal.Read.val_main_cst_7_apply, Cert.ReferenceIdeal.Read.val_main_v29_apply,
    Cert.ReferenceIdeal.Read.val_main_cst_6_apply, Cert.ReferenceIdeal.Read.val_main_v28_apply,
    Cert.ReferenceIdeal.Read.val_main_v27_apply, Cert.ReferenceIdeal.Read.val_main_v26_apply,
    Cert.ReferenceIdeal.Read.val_main_v25_apply, Cert.ReferenceIdeal.Read.val_main_v24_apply,
    Cert.ReferenceIdeal.Read.val_main_cst_5_apply]
  unfold dK
  generalize Cert.ReferenceIdeal.Read.val_main_v2 (F := Ideal) μ σ ε j = w
  generalize Cert.ReferenceIdeal.Read.val_main_v0 (F := Ideal) σ j = s
  rw [zero_word_sub (FloatOps.mulf (FloatOps.subf (μ j) w) (FloatOps.subf (μ j) w)),
    zero_word_sub (FloatOps.mulf (FloatOps.subf (Scalar.ofBits .f32 0x00000000#32) w) (FloatOps.subf (Scalar.ofBits .f32 0x00000000#32) w))]
  rfl

theorem pay1_apply (j : S512x512.Idx) : k0_pay1 (F := Ideal) j = 0 := by
  unfold k0_pay1
  rw [shapeCast_self]
  exact Ideal.ofBits_zero_f32

theorem pay2_apply (j : S8x1024.Idx) : k0_pay2 (F := Ideal) j = 0 := by
  unfold k0_pay2
  rw [shapeCast_self]
  exact Ideal.ofBits_zero_f32

/-- Row g·8+s of the 512-row block: the row that entry (g, s) of the (64, 8, 1024) reshape reads. -/
def row8 (g : Fin 64) (s : Fin 8) : Fin 512 := ⟨g.val * 8 + s.val, by have := g.isLt; have := s.isLt; omega⟩

/-- The reshape (512,1024) → (64,8,1024) read at (g, s, l) is the operand at (g·8+s, l). -/
theorem reshape_apply (x : FVec Ideal S512x1024 .f32) (g : Fin 64) (s : Fin 8) (l : Fin 1024) :
    shapeCast S64x8x1024 x shapeCasts_S512x1024_S64x8x1024 (ix3 g s l) = x (ix2 (row8 g s) l) := by
  refine shapeCast_apply x _ (ix3 g s l) (ix2 (row8 g s) l) ?_
  rw [Shape.rowMajor_val_two, Shape.rowMajor_val_three]
  rfl

/-- The lane sum over axis 0 of a (64,8,1024) vector at (s, l) is the sum over the 64 groups. -/
theorem lanesum_apply (y : FVec Ideal S64x8x1024 .f32) (s : Fin 8) (l : Fin 1024) :
    multiReduction .add [0] S8x1024 y 0x00000000#32 reduces_S64x8x1024_S8x1024 (.inl rfl) rfl (ix2 s l)
      = ∑ g : Fin 64, y (ix3 g s l) := by
  refine (Ideal.multiReduction_add_single y 0x00000000#32 reduces_S64x8x1024_S8x1024 (.inl rfl) rfl (ix2 s l)).trans ?_
  refine Finset.sum_congr rfl fun g _ => congrArg y ?_
  funext a
  match a with
  | ⟨0, _⟩ => rfl
  | ⟨1, _⟩ => rfl
  | ⟨2, _⟩ => rfl

/-- The KL payload at (s, l): the loaded accumulator plus the sum over the 64 row groups of the kernel's integrand at block row g·8+s. -/
theorem pay7_apply (v19 v21 v37 : FVec Ideal S512x1024 .f32) (v73 : Vec Ideal S8x1024 .f32) (s : Fin 8) (l : Fin 1024) :
    k0_pay7 (F := Ideal) v19 v21 v37 v73 (ix2 s l)
      = v73 (ix2 s l) + ∑ g : Fin 64, dK (v19 (ix2 (row8 g s) l)) (v21 (ix2 (row8 g s) l)) (v37 (ix2 (row8 g s) l)) := by
  show shapeCast S8x1024 (addf v73 (multiReduction .add [0] S8x1024
      (shapeCast S64x8x1024 (fun i => dK (v19 i) (v21 i) (v37 i)) shapeCasts_S512x1024_S64x8x1024)
      0x00000000#32 reduces_S64x8x1024_S8x1024 (.inl rfl) rfl)) shapeCasts_S8x1024_S8x1024 (ix2 s l) = _
  rw [shapeCast_self]
  refine congrArg (v73 (ix2 s l) + ·) ?_
  refine (lanesum_apply _ s l).trans ?_
  exact Finset.sum_congr rfl fun g _ => reshape_apply _ g s l

/-- The matmul's left operand index at output (b, o): row b (its contracted column is the contraction index). -/
theorem lhs_row (i : S512x512.Idx) (q : dot_S512x1024_S512x1024_S512x512_1_1_0_0_n_n.contr.Idx) :
    (dot_S512x1024_S512x1024_S512x512_1_1_0_0_n_n.lhsIdx i q 0).val = (i 0).val := by
  unfold DotDims.lhsIdx
  rw [dif_neg (show ¬(0 : Fin S512x1024.rank) ∈ dot_S512x1024_S512x1024_S512x512_1_1_0_0_n_n.lhsBatch by decide),
    dif_pos (show (0 : Fin S512x1024.rank) ∈ dot_S512x1024_S512x1024_S512x512_1_1_0_0_n_n.lhsNonContracting by decide)]
  rfl

/-- The matmul's right operand index at output (b, o): row o. -/
theorem rhs_row (i : S512x512.Idx) (q : dot_S512x1024_S512x1024_S512x512_1_1_0_0_n_n.contr.Idx) :
    (dot_S512x1024_S512x1024_S512x512_1_1_0_0_n_n.rhsIdx i q 0).val = (i 1).val := by
  unfold DotDims.rhsIdx
  rw [dif_neg (show ¬(0 : Fin S512x1024.rank) ∈ dot_S512x1024_S512x1024_S512x512_1_1_0_0_n_n.rhsBatch by decide),
    dif_pos (show (0 : Fin S512x1024.rank) ∈ dot_S512x1024_S512x1024_S512x512_1_1_0_0_n_n.rhsNonContracting by decide)]
  rfl

/-- The matmul payload at (b, o): the loaded accumulator plus the sum over the 1024 contracted columns of the left block at (b, k) times the kernel's weight at (o, k). -/
theorem pay5_apply (v3 v4 v5 v25 : Vec Ideal S512x1024 .f32) (v28 : Vec Ideal S512x512 .f32) (b o : Fin 512) :
    k0_pay5 (F := Ideal) v3 v4 v5 v25 v28 (ix2 b o)
      = v28 (ix2 b o) + ∑ k : Fin 1024, v25 (ix2 b k) * k0_pay4 (F := Ideal) v3 v4 v5 (ix2 o k) := by
  unfold k0_pay5
  generalize k0_pay4 (F := Ideal) v3 v4 v5 = w
  rw [shapeCast_self]
  refine congrArg (v28 (ix2 b o) + ·) ?_
  refine (Ideal.matmul_constant_zero_apply dot_S512x1024_S512x1024_S512x512_1_1_0_0_n_n none _ _ (ix2 b o)).trans ?_
  rw [← Equiv.sum_comp (contrEquiv1 dot_S512x1024_S512x1024_S512x512_1_1_0_0_n_n 1024 rfl rfl).symm]
  refine Finset.sum_congr rfl fun k _ => ?_
  have hk := contrEquiv1_symm_val dot_S512x1024_S512x1024_S512x512_1_1_0_0_n_n 1024 rfl rfl k
  have el : dot_S512x1024_S512x1024_S512x512_1_1_0_0_n_n.lhsIdx (ix2 b o)
      ((contrEquiv1 dot_S512x1024_S512x1024_S512x512_1_1_0_0_n_n 1024 rfl rfl).symm k) = ix2 b k := funext fun a => Fin.ext (by
    match a with
    | ⟨0, _⟩ => exact lhs_row _ _
    | ⟨1, _⟩ => exact (dot_S512x1024_S512x1024_S512x512_1_1_0_0_n_n.lhsIdx_val_of_single rfl _ _).trans hk)
  have er : dot_S512x1024_S512x1024_S512x512_1_1_0_0_n_n.rhsIdx (ix2 b o)
      ((contrEquiv1 dot_S512x1024_S512x1024_S512x512_1_1_0_0_n_n 1024 rfl rfl).symm k) = ix2 o k := funext fun a => Fin.ext (by
    match a with
    | ⟨0, _⟩ => exact rhs_row _ _
    | ⟨1, _⟩ => exact (dot_S512x1024_S512x1024_S512x512_1_1_0_0_n_n.rhsIdx_val_of_single rfl _ _).trans hk)
  rw [el, er]
  rfl

/-- The matmul payload at (b, o): the loaded accumulator plus the sum over the 1024 contracted columns, the weight factor being the reference's weight stage at whatever array index C k the block's entry (o, k) comes from. -/
theorem pay5_ref (v3 v4 v5 v25 : Vec Ideal S512x1024 .f32) (v28 : Vec Ideal S512x512 .f32)
    (μ σ ε : Cert.ReferenceIdeal.S4096x4096.Idx → Ideal .f32)
    (b o : Fin 512) (C : Fin 1024 → Cert.ReferenceIdeal.S4096x4096.Idx)
    (hC : ∀ k : Fin 1024, v3 (ix2 o k) = μ (C k) ∧ v4 (ix2 o k) = σ (C k) ∧ v5 (ix2 o k) = ε (C k)) :
    k0_pay5 (F := Ideal) v3 v4 v5 v25 v28 (ix2 b o)
      = v28 (ix2 b o) + ∑ k : Fin 1024, v25 (ix2 b k) * Cert.ReferenceIdeal.Read.val_main_v2 (F := Ideal) μ σ ε (C k) := by
  rw [pay5_apply]
  refine congrArg (v28 (ix2 b o) + ·) (Finset.sum_congr rfl fun k _ => ?_)
  rw [pay4_ref v3 v4 v5 μ σ ε (ix2 o k) (C k) (hC k).1 (hC k).2.1 (hC k).2.2]

/-- The KL payload at (s, l): the loaded accumulator plus the sum over the 64 row groups g of the integrand at block row g·8+s, the integrand being the reference's stage at whatever array index R g that entry comes from. -/
theorem pay7_ref (v3 v4 v5 : Vec Ideal S512x1024 .f32) (v73 : Vec Ideal S8x1024 .f32)
    (μ σ ε : Cert.ReferenceIdeal.S4096x4096.Idx → Ideal .f32)
    (s : Fin 8) (l : Fin 1024) (R : Fin 64 → Cert.ReferenceIdeal.S4096x4096.Idx)
    (hR : ∀ g : Fin 64, v3 (ix2 (row8 g s) l) = μ (R g) ∧ v4 (ix2 (row8 g s) l) = σ (R g) ∧ v5 (ix2 (row8 g s) l) = ε (R g)) :
    k0_pay7 (F := Ideal) (k0_pay3 v4) (k0_pay4 v3 v4 v5) (k0_pay6 v3 v4 v5) v73 (ix2 s l)
      = v73 (ix2 s l) + ∑ g : Fin 64, Cert.ReferenceIdeal.Read.val_main_v37 (F := Ideal) μ σ ε (R g) := by
  rw [pay7_apply]
  refine congrArg (v73 (ix2 s l) + ·) (Finset.sum_congr rfl fun g _ => ?_)
  rw [pay6_apply, pay4_ref v3 v4 v5 μ σ ε (ix2 (row8 g s) l) (R g) (hR g).1 (hR g).2.1 (hR g).2.2,
    pay3_apply, (hR g).1, (hR g).2.1, spK_ref]
  exact dK_ref μ σ ε (R g)

end Cert.KernelIdeal.KPay

end
-- ==== Proof.KChain.lean ====
import proofs.«136775_j5574867550300_2_alg».proof.Proof.Gen.KernelIdeal.Frame
import proofs.«136775_j5574867550300_2_alg».proof.Proof.Gen.ReferenceIdeal.Read
import proofs.«136775_j5574867550300_2_alg».proof.Proof.KBlocks
import proofs.«136775_j5574867550300_2_alg».proof.Proof.KPieces
import proofs.«136775_j5574867550300_2_alg».proof.Proof.KPay
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KChain

open Cert.KernelIdeal Cert.KernelIdeal.Gen Cert.KernelIdeal.KBlocks Cert.KernelIdeal.KValue Cert.KernelIdeal.KPay

variable (m : (ℓ : Loc nD τ sig) → Buf (Elt Ideal) ℓ) (ρ : Dev nD → PrngReg)

/-! The two accumulators, point by point, over the extended reals. Along a row tile o the grid visits the column tiles
    j = 0, 1, 2, 3 in order; the first visit starts both accumulators from zero, every visit adds that column tile's share:
    to the product accumulator the sum over the tile's 1024 columns of x · w, to the partial-sum accumulator the sum over the
    64 groups of eight rows of the integrand. Here w and the integrand are the reference's own stages read at the array index
    the block entry comes from. -/

/-- The sampled weight, as the reference's stage of the three weight-shaped arguments the region finds. -/
def Wr (c : Dev nD) : Cert.ReferenceIdeal.S4096x4096.Idx → Ideal .f32 :=
  Cert.ReferenceIdeal.Read.val_main_v2 (F := Ideal) (V m c main_arg1) (V m c main_arg2) (V m c main_arg3)
/-- The integrand of the divergence, likewise. -/
def Dr (c : Dev nD) : Cert.ReferenceIdeal.S4096x4096.Idx → Ideal .f32 :=
  Cert.ReferenceIdeal.Read.val_main_v37 (F := Ideal) (V m c main_arg1) (V m c main_arg2) (V m c main_arg3)

/-- The activations, as the region finds them. -/
def Xr (c : Dev nD) : Cert.ReferenceIdeal.S512x4096.Idx → Ideal .f32 := V m c main_arg0

/-- Column tile j's share of the product at row b, column o·512 + oo. -/
def ypart (c : Dev nD) (o : Fin 8) (j : Fin 4) (b oo : Fin 512) : EReal :=
  ∑ k : Fin 1024, Xr m c (ix2 b (wcol j k)) * Wr m c (ix2 (wrow o oo) (wcol j k))
/-- Column tile j's share of the partial sum at row o·8 + s, column l: the integrand summed over the rows o·512 + g·8 + s. -/
def kpart (c : Dev nD) (o : Fin 8) (j : Fin 4) (s : Fin 8) (l : Fin 1024) : EReal :=
  ∑ g : Fin 64, Dr m c (ix2 (wrow o (row8 g s)) (wcol j l))

/-- The product accumulator after the column tiles 0 … n of row tile o. -/
def yacc (c : Dev nD) (o : Fin 8) (b oo : Fin 512) : ℕ → EReal
  | 0 => ypart m c o 0 b oo
  | n + 1 => yacc c o b oo n + ypart m c o ⟨(n + 1) % 4, Nat.mod_lt _ (by decide)⟩ b oo
/-- The partial-sum accumulator after the column tiles 0 … n of row tile o. -/
def kacc (c : Dev nD) (o : Fin 8) (s : Fin 8) (l : Fin 1024) : ℕ → EReal
  | 0 => kpart m c o 0 s l
  | n + 1 => kacc c o s l n + kpart m c o ⟨(n + 1) % 4, Nat.mod_lt _ (by decide)⟩ s l

/-- One visit adds the tile's share to whatever the product accumulator held. -/
theorem step5 (c : Dev nD) (t : Fin cfg0.N) (xs0 : Vec Ideal S512x512 .f32) (b oo : Fin 512) :
    k0_pay5 (F := Ideal) (iblk m c 1 t) (iblk m c 2 t) (iblk m c 3 t) (xcols (grid0.coords t) (iblk m c 0 t)) xs0 (ix2 b oo)
      = xs0 (ix2 b oo) + ypart m c (pto t) (ptj t) b oo := by
  refine (pay5_ref (iblk m c 1 t) (iblk m c 2 t) (iblk m c 3 t) (xcols (grid0.coords t) (iblk m c 0 t)) xs0
    (V m c main_arg1) (V m c main_arg2) (V m c main_arg3) b oo (fun k => ix2 (wrow (pto t) oo) (wcol (ptj t) k))
    (fun k => ⟨iblk1_apply m c t oo k, iblk2_apply m c t oo k, iblk3_apply m c t oo k⟩)).trans ?_
  refine congrArg (xs0 (ix2 b oo) + ·) (Finset.sum_congr rfl fun k _ => ?_)
  exact congrArg (· * _) ((xcols_apply t (iblk m c 0 t) b k).trans (iblk0_apply m c t b _))

/-- One visit adds the tile's share to whatever the partial-sum accumulator held. -/
theorem step7 (c : Dev nD) (t : Fin cfg0.N) (xs1 : Vec Ideal S8x1024 .f32) (s : Fin 8) (l : Fin 1024) :
    k0_pay7 (F := Ideal) (k0_pay3 (iblk m c 2 t)) (k0_pay4 (iblk m c 1 t) (iblk m c 2 t) (iblk m c 3 t))
        (k0_pay6 (iblk m c 1 t) (iblk m c 2 t) (iblk m c 3 t)) xs1 (ix2 s l)
      = xs1 (ix2 s l) + kpart m c (pto t) (ptj t) s l :=
  pay7_ref (iblk m c 1 t) (iblk m c 2 t) (iblk m c 3 t) xs1
    (V m c main_arg1) (V m c main_arg2) (V m c main_arg3) s l (fun g => ix2 (wrow (pto t) (row8 g s)) (wcol (ptj t) l))
    (fun g => ⟨iblk1_apply m c t (row8 g s) l, iblk2_apply m c t (row8 g s) l, iblk3_apply m c t (row8 g s) l⟩)

/-- The product scratch after point n holds the accumulator after column tiles 0 … n % 4 of row tile n / 4. -/
theorem acc0_eq (c : Dev nD) : ∀ (n : ℕ) (h : n < cfg0.N) (b oo : Fin 512),
    (outsAt0 m c n h).2.2.1 (ix2 b oo) = yacc m c (pto ⟨n, h⟩) b oo (n % 4)
  | 0, h, b, oo => by
    rw [outsAt0_A m c ⟨0, h⟩ rfl (by show ¬ 0 % 4 = 3; decide)]
    dsimp only
    rw [sA0]
    refine (step5 m c ⟨0, h⟩ _ b oo).trans ?_
    rw [pay1_apply, zero_add]
    rfl
  | n + 1, h, b, oo => by
    have hN : cfg0.N = 32 := N_0
    have ih := acc0_eq c n (Nat.lt_of_succ_lt h) b oo
    by_cases h0 : (n + 1) % 4 = 0
    · rw [outsAt0_A m c ⟨n + 1, h⟩ h0 (by show ¬ (n + 1) % 4 = 3; omega)]
      dsimp only
      rw [sA0]
      refine (step5 m c ⟨n + 1, h⟩ _ b oo).trans ?_
      rw [pay1_apply, zero_add, h0]
      have e : ptj ⟨n + 1, h⟩ = 0 := Fin.ext h0
      rw [e]
      rfl
    · have e1 : (n + 1) % 4 = n % 4 + 1 := by omega
      have e2 : pto ⟨n, Nat.lt_of_succ_lt h⟩ = pto ⟨n + 1, h⟩ := Fin.ext (by show n / 4 = (n + 1) / 4; omega)
      have e3 : ptj ⟨n + 1, h⟩ = ⟨(n % 4 + 1) % 4, Nat.mod_lt _ (by decide)⟩ :=
        Fin.ext (by show (n + 1) % 4 = (n % 4 + 1) % 4; omega)
      rw [e2] at ih
      by_cases h1 : (n + 1) % 4 = 3
      · rw [outsAt0_C m c ⟨n + 1, h⟩ h0 h1]
        dsimp only
        rw [sC0]
        refine (step5 m c ⟨n + 1, h⟩ _ b oo).trans ?_
        rw [e1, e3]
        show (outsAt0 m c n _).2.2.1 (ix2 b oo) + _ = yacc m c _ b oo (n % 4) + _
        rw [ih]
      · rw [outsAt0_B m c ⟨n + 1, h⟩ h0 h1]
        dsimp only
        rw [sB0]
        refine (step5 m c ⟨n + 1, h⟩ _ b oo).trans ?_
        rw [e1, e3]
        show (outsAt0 m c n _).2.2.1 (ix2 b oo) + _ = yacc m c _ b oo (n % 4) + _
        rw [ih]

/-- The partial-sum scratch after point n holds the accumulator after column tiles 0 … n % 4 of row tile n / 4. -/
theorem acc1_eq (c : Dev nD) : ∀ (n : ℕ) (h : n < cfg0.N) (s : Fin 8) (l : Fin 1024),
    (outsAt0 m c n h).2.2.2 (ix2 s l) = kacc m c (pto ⟨n, h⟩) s l (n % 4)
  | 0, h, s, l => by
    rw [outsAt0_A m c ⟨0, h⟩ rfl (by show ¬ 0 % 4 = 3; decide)]
    dsimp only
    rw [sA1]
    refine (step7 m c ⟨0, h⟩ _ s l).trans ?_
    rw [pay2_apply, zero_add]
    rfl
  | n + 1, h, s, l => by
    have hN : cfg0.N = 32 := N_0
    have ih := acc1_eq c n (Nat.lt_of_succ_lt h) s l
    by_cases h0 : (n + 1) % 4 = 0
    · rw [outsAt0_A m c ⟨n + 1, h⟩ h0 (by show ¬ (n + 1) % 4 = 3; omega)]
      dsimp only
      rw [sA1]
      refine (step7 m c ⟨n + 1, h⟩ _ s l).trans ?_
      rw [pay2_apply, zero_add, h0]
      have e : ptj ⟨n + 1, h⟩ = 0 := Fin.ext h0
      rw [e]
      rfl
    · have e1 : (n + 1) % 4 = n % 4 + 1 := by omega
      have e2 : pto ⟨n, Nat.lt_of_succ_lt h⟩ = pto ⟨n + 1, h⟩ := Fin.ext (by show n / 4 = (n + 1) / 4; omega)
      have e3 : ptj ⟨n + 1, h⟩ = ⟨(n % 4 + 1) % 4, Nat.mod_lt _ (by decide)⟩ :=
        Fin.ext (by show (n + 1) % 4 = (n % 4 + 1) % 4; omega)
      rw [e2] at ih
      by_cases h1 : (n + 1) % 4 = 3
      · rw [outsAt0_C m c ⟨n + 1, h⟩ h0 h1]
        dsimp only
        rw [sC1]
        refine (step7 m c ⟨n + 1, h⟩ _ s l).trans ?_
        rw [e1, e3]
        show (outsAt0 m c n _).2.2.2 (ix2 s l) + _ = kacc m c _ s l (n % 4) + _
        rw [ih]
      · rw [outsAt0_B m c ⟨n + 1, h⟩ h0 h1]
        dsimp only
        rw [sB1]
        refine (step7 m c ⟨n + 1, h⟩ _ s l).trans ?_
        rw [e1, e3]
        show (outsAt0 m c n _).2.2.2 (ix2 s l) + _ = kacc m c _ s l (n % 4) + _
        rw [ih]

/-- At a point of the last column tile the product's staging block holds what the scratch holds: the full accumulator. -/
theorem out4_eq (c : Dev nD) (t : Fin cfg0.N) (h3 : t.val % 4 = 3) (b oo : Fin 512) :
    (outsAt0 m c t.val t.isLt).1 (ix2 b oo) = yacc m c (pto t) b oo 3 := by
  have e := acc0_eq m c t.val t.isLt b oo
  rw [h3] at e
  rw [← e, outsAt0_C m c t (by show ¬ t.val % 4 = 0; omega) h3]
  dsimp only
  rw [oC4, sC0]

/-- And the partial sums' staging block holds the full partial-sum accumulator. -/
theorem out5_eq (c : Dev nD) (t : Fin cfg0.N) (h3 : t.val % 4 = 3) (s : Fin 8) (l : Fin 1024) :
    (outsAt0 m c t.val t.isLt).2.1 (ix2 s l) = kacc m c (pto t) s l 3 := by
  have e := acc1_eq m c t.val t.isLt s l
  rw [h3] at e
  rw [← e, outsAt0_C m c t (by show ¬ t.val % 4 = 0; omega) h3]
  dsimp only
  rw [oC5, sC1]

end Cert.KernelIdeal.KChain

end
-- ==== Proof.KCover.lean ====
import proofs.«136775_j5574867550300_2_alg».proof.Proof.Gen.KernelIdeal.Frame
import Idealize.ShloMosaic.Lib.Pipeline.Value
import Idealize.ShloMosaic.Lib.ValueIdx
import Idealize.ShloMosaic.Lib.Tactic
import proofs.«136775_j5574867550300_2_alg».proof.Proof.KBlocks

noncomputable section

open Idealize.ShloMosaic Idealize.ShloMosaic.TcCoe Idealize.SL.Sem Idealize.ShloMosaic.ValueIdx
open Idealize.ShloMosaic.Pipeline (Dat)

namespace Cert.KernelIdeal.KCover

open Cert.KernelIdeal Cert.KernelIdeal.Gen Cert.KernelIdeal.KBlocks

/-! Where the two result blocks sit, and that the blocks written back tile the two result arrays. Point t of the 8 × 4 grid is
    (o, j) = (t / 4, t % 4). The product's block at point t is the 512 × 512 block (0, o) of the 512 × 4096 array: all 512 rows,
    columns o·512 … o·512 + 511. The block of partial sums is the 8 × 1024 block (o, 0) of the 64 × 1024 array: rows o·8 … o·8 + 7,
    all 1024 columns. Both are written back at the points with t % 4 = 3, one for each o < 8; as o runs over 0 … 7 the column
    ranges tile the 4096 columns and the row ranges tile the 64 rows, so every entry of either array is in a written-back block. -/

/-- Entry (b, oo) of the product's block at point t is entry (b, o·512 + oo) of the product, o = t / 4. -/
theorem emb4 (t : Fin cfg0.N) (b oo : Fin 512) :
    ((cfg0.win 4).blk t).view.emb (ix2 b oo) = ix2 b (wrow (pto t) oo) := by
  obtain ⟨-, -, -, -, -, -, -, -, h0, h1, -⟩ := idx_facts t
  funext a
  apply Fin.ext
  match a with
  | ⟨0, _⟩ => show win0_4.index t 0 * 512 + 1 * b.val = b.val; rw [h0]; omega
  | ⟨1, _⟩ => show win0_4.index t 1 * 512 + 1 * oo.val = (t.val / 4) * 512 + oo.val; rw [h1]; omega

/-- Entry (s, l) of the block of partial sums at point t is entry (o·8 + s, l) of the partial sums, o = t / 4. -/
theorem emb5 (t : Fin cfg0.N) (s : Fin 8) (l : Fin 1024) :
    ((cfg0.win 5).blk t).view.emb (ix2 s l) = ix2 (prow (pto t) s) l := by
  obtain ⟨-, -, -, -, -, -, -, -, -, -, h0, h1⟩ := idx_facts t
  funext a
  apply Fin.ext
  match a with
  | ⟨0, _⟩ => show win0_5.index t 0 * 8 + 1 * s.val = (t.val / 4) * 8 + s.val; rw [h0]; omega
  | ⟨1, _⟩ => show win0_5.index t 1 * 1024 + 1 * l.val = l.val; rw [h1]; omega

/-- An entry of the product is in point t's block iff each coordinate is in the block's range on its axis. -/
theorem mem_blk4 (t : Fin cfg0.N) (i : S512x4096.Idx) :
    i ∈ ((cfg0.win 4).blk t).view.set ↔ ∀ a : Fin 2, win0_4.index t a * S512x512.size a ≤ (i a).val ∧ (i a).val < win0_4.index t a * S512x512.size a + S512x512.size a := by
  show i ∈ ((View.whole main_v0_0).slice (win0_4.rect t)).set ↔ _
  rw [View.set_slice_whole, Rect.mem_set_unit]
  exact Iff.rfl

/-- An entry of the partial sums is in point t's block iff each coordinate is in the block's range on its axis. -/
theorem mem_blk5 (t : Fin cfg0.N) (i : S64x1024.Idx) :
    i ∈ ((cfg0.win 5).blk t).view.set ↔ ∀ a : Fin 2, win0_5.index t a * S8x1024.size a ≤ (i a).val ∧ (i a).val < win0_5.index t a * S8x1024.size a + S8x1024.size a := by
  show i ∈ ((View.whole main_v0_1).slice (win0_5.rect t)).set ↔ _
  rw [View.set_slice_whole, Rect.mem_set_unit]
  exact Iff.rfl

/-- Every entry of the product is in a written-back block: column c is in the block of the point 4·(c / 512) + 3. -/
theorem cover4 : ∀ i : S512x4096.Idx, ∃ t : Fin cfg0.N, (cfg0.win 4).flush t = true ∧ i ∈ ((cfg0.win 4).blk t).view.set := by
  intro i
  have hi0 : (i 0).val < 512 := (i 0).isLt
  have hi1 : (i 1).val < 4096 := (i 1).isLt
  have hN : cfg0.N = 32 := N_0
  obtain ⟨t, ht⟩ : ∃ t : Fin cfg0.N, t.val = 4 * ((i 1).val / 512) + 3 :=
    ⟨⟨4 * ((i 1).val / 512) + 3, by omega⟩, rfl⟩
  obtain ⟨-, -, -, -, -, -, -, -, h0, h1, -⟩ := idx_facts t
  refine ⟨t, (flush0_4 t).mpr (by omega), ?_⟩
  rw [mem_blk4]
  intro a
  match a with
  | ⟨0, _⟩ => show win0_4.index t 0 * 512 ≤ (i 0).val ∧ (i 0).val < win0_4.index t 0 * 512 + 512; rw [h0]; omega
  | ⟨1, _⟩ => show win0_4.index t 1 * 512 ≤ (i 1).val ∧ (i 1).val < win0_4.index t 1 * 512 + 512; rw [h1]; omega

/-- Every entry of the partial sums is in a written-back block: row r is in the block of the point 4·(r / 8) + 3. -/
theorem cover5 : ∀ i : S64x1024.Idx, ∃ t : Fin cfg0.N, (cfg0.win 5).flush t = true ∧ i ∈ ((cfg0.win 5).blk t).view.set := by
  intro i
  have hi0 : (i 0).val < 64 := (i 0).isLt
  have hi1 : (i 1).val < 1024 := (i 1).isLt
  have hN : cfg0.N = 32 := N_0
  obtain ⟨t, ht⟩ : ∃ t : Fin cfg0.N, t.val = 4 * ((i 0).val / 8) + 3 :=
    ⟨⟨4 * ((i 0).val / 8) + 3, by omega⟩, rfl⟩
  obtain ⟨-, -, -, -, -, -, -, -, -, -, h0, h1⟩ := idx_facts t
  refine ⟨t, (flush0_5 t).mpr (by omega), ?_⟩
  rw [mem_blk5]
  intro a
  match a with
  | ⟨0, _⟩ => show win0_5.index t 0 * 8 ≤ (i 0).val ∧ (i 0).val < win0_5.index t 0 * 8 + 8; rw [h0]; omega
  | ⟨1, _⟩ => show win0_5.index t 1 * 1024 ≤ (i 1).val ∧ (i 1).val < win0_5.index t 1 * 1024 + 1024; rw [h1]; omega

end Cert.KernelIdeal.KCover

end
-- ==== Proof.LibSumDigits.lean ====
/-
  Re-indexing a finite sum by mixed-radix digits, in any additive commutative monoid.

  Every `r < m * n` is `a * n + b` for exactly one pair of digits `a < m`, `b < n`, so a sum over
  `Fin (m * n)` is the double sum over the two digits (`sum_fin_mul`).  Applying this three times, a
  sum over `Fin (n₁ * n₂ * n₃ * n₄)` is the fourfold sum over the digits of
  `r = ((a * n₂ + b) * n₃ + c) * n₄ + d` (`sum_fin_mul4`).  Last, four nested sums may be reordered
  by moving the outer pair of summation variables inside the inner pair (`sum_comm4`).
-/
import Mathlib.Algebra.BigOperators.Fin
import Mathlib.Logic.Equiv.Fin.Basic
import Mathlib.Tactic.Ring

open scoped BigOperators

namespace Cert.SumDigits

variable {M : Type*} [AddCommMonoid M]

/-- A two-digit numeral with digits `a < m` and `b < n` is below `m * n`. -/
theorem digits_lt {m n : ℕ} (a : Fin m) (b : Fin n) : a.val * n + b.val < m * n :=
  calc a.val * n + b.val < a.val * n + n := Nat.add_lt_add_left b.isLt _
    _ = (a.val + 1) * n := by ring
    _ ≤ m * n := Nat.mul_le_mul_right n a.isLt

/-- A sum over `Fin N` with `N = m * n` is the double sum over the digits `a < m`, `b < n` of
    `r = a * n + b`. -/
theorem sum_fin_mul {m n N : ℕ} (hN : m * n = N) (f : Fin N → M) :
    ∑ r : Fin N, f r = ∑ a : Fin m, ∑ b : Fin n, f ⟨a.val * n + b.val, hN ▸ digits_lt a b⟩ := by
  subst hN
  rw [← Equiv.sum_comp finProdFinEquiv f, Fintype.sum_prod_type]
  refine Finset.sum_congr rfl fun a _ => Finset.sum_congr rfl fun b _ => ?_
  congr 1
  ext
  simp only [finProdFinEquiv_apply_val]
  ring

/-- A four-digit numeral with digits `a < n₁`, `b < n₂`, `c < n₃`, `d < n₄` is below
    `n₁ * n₂ * n₃ * n₄`. -/
theorem digits4_lt {n₁ n₂ n₃ n₄ : ℕ} (a : Fin n₁) (b : Fin n₂) (c : Fin n₃) (d : Fin n₄) :
    ((a.val * n₂ + b.val) * n₃ + c.val) * n₄ + d.val < n₁ * n₂ * n₃ * n₄ :=
  digits_lt (⟨_, digits_lt (⟨_, digits_lt a b⟩ : Fin (n₁ * n₂)) c⟩ : Fin (n₁ * n₂ * n₃)) d

/-- A sum over `Fin N` with `N = n₁ * n₂ * n₃ * n₄` is the fourfold sum over the digits of
    `r = ((a * n₂ + b) * n₃ + c) * n₄ + d`. -/
theorem sum_fin_mul4 {n₁ n₂ n₃ n₄ N : ℕ} (hN : n₁ * n₂ * n₃ * n₄ = N) (f : Fin N → M) :
    ∑ r : Fin N, f r = ∑ a : Fin n₁, ∑ b : Fin n₂, ∑ c : Fin n₃, ∑ d : Fin n₄,
      f ⟨((a.val * n₂ + b.val) * n₃ + c.val) * n₄ + d.val, hN ▸ digits4_lt a b c d⟩ := by
  subst hN
  rw [sum_fin_mul (m := n₁ * n₂ * n₃) (n := n₄) rfl f,
    sum_fin_mul (m := n₁ * n₂) (n := n₃) rfl
      (fun p : Fin (n₁ * n₂ * n₃) => ∑ d : Fin n₄, f ⟨p.val * n₄ + d.val, digits_lt p d⟩),
    sum_fin_mul (m := n₁) (n := n₂) rfl
      (fun q : Fin (n₁ * n₂) => ∑ c : Fin n₃, ∑ d : Fin n₄,
        f ⟨(q.val * n₃ + c.val) * n₄ + d.val,
          digits_lt (⟨_, digits_lt q c⟩ : Fin (n₁ * n₂ * n₃)) d⟩)]

/-- Four nested finite sums: the outer two summation variables may be moved inside the inner two. -/
theorem sum_comm4 {α β γ δ : Type*} [Fintype α] [Fintype β] [Fintype γ] [Fintype δ]
    (g : α → β → γ → δ → M) :
    ∑ a, ∑ b, ∑ c, ∑ d, g a b c d = ∑ c, ∑ d, ∑ a, ∑ b, g a b c d :=
  calc ∑ a, ∑ b, ∑ c, ∑ d, g a b c d
      = ∑ a, ∑ c, ∑ b, ∑ d, g a b c d := Finset.sum_congr rfl fun _ _ => Finset.sum_comm
    _ = ∑ c, ∑ a, ∑ b, ∑ d, g a b c d := Finset.sum_comm
    _ = ∑ c, ∑ a, ∑ d, ∑ b, g a b c d :=
        Finset.sum_congr rfl fun _ _ => Finset.sum_congr rfl fun _ _ => Finset.sum_comm
    _ = ∑ c, ∑ d, ∑ a, ∑ b, g a b c d := Finset.sum_congr rfl fun _ _ => Finset.sum_comm

end Cert.SumDigits
-- ==== Proof.LibSumBlocks.lean ====
/-
  Regrouping finite sums over 4096 rows and 4096 columns by blocks, in any additive commutative
  monoid.

  Columns: every column index below 4096 is `j * 1024 + k` for exactly one block `j < 4` and one
  offset `k < 1024` (`col j k`), so a sum over the 4096 columns is the sum of the four consecutive
  blocks of 1024 columns (`sum_cols`, `sum_four_blocks`).

  Rows: every row index below 4096 is `o * 512 + g * 8 + s` for exactly one triple `o < 8`,
  `g < 64`, `s < 8` (`row3 o g s`).  Pairing the outer and the inner digit into `r = o * 8 + s < 64`
  gives `row r g`, and a sum over the 4096 rows is the double sum over `r` and `g` (`sum_rows`).

  Together: the double sum over rows and columns, with `r` and the column offset outside, the four
  column blocks written out, and `g` innermost (`sum_rows_cols`).
-/
import Mathlib.Algebra.BigOperators.Fin
import proofs.«136775_j5574867550300_2_alg».proof.Proof.LibSumDigits

open scoped BigOperators

namespace Cert.SumBlocks

variable {M : Type*} [AddCommMonoid M]

/-- The column `j * 1024 + k` of 4096, for the block `j < 4` and the offset `k < 1024`. -/
def col (j : Fin 4) (k : Fin 1024) : Fin 4096 :=
  ⟨j.val * 1024 + k.val, by have := j.isLt; have := k.isLt; omega⟩

/-- The row `(r / 8) * 512 + g * 8 + r % 8` of 4096, for `r < 64` and `g < 64`: with `r = o * 8 + s`,
    `o < 8`, `s < 8`, this is the row `o * 512 + g * 8 + s`. -/
def row (r : Fin 64) (g : Fin 64) : Fin 4096 :=
  ⟨(r.val / 8) * 512 + g.val * 8 + r.val % 8, by have := r.isLt; have := g.isLt; omega⟩

/-- The row `o * 512 + g * 8 + s` of 4096, for the digits `o < 8`, `g < 64`, `s < 8`. -/
def row3 (o : Fin 8) (g : Fin 64) (s : Fin 8) : Fin 4096 :=
  ⟨o.val * 512 + g.val * 8 + s.val, by have := o.isLt; have := g.isLt; have := s.isLt; omega⟩

/-- With `r = o * 8 + s`, `o < 8`, `s < 8`, the row `row r g` is `o * 512 + g * 8 + s`: the quotient
    of `r` by 8 is `o` and the remainder is `s`. -/
theorem row_pair (o : Fin 8) (s : Fin 8) (g : Fin 64) (h : o.val * 8 + s.val < 64) :
    row ⟨o.val * 8 + s.val, h⟩ g = row3 o g s := by
  have := o.isLt
  have := s.isLt
  apply Fin.ext
  simp only [row, row3]
  omega

/-- A sum over 4096 columns is the double sum over the block `j < 4` and the offset `k < 1024` of
    the column `j * 1024 + k`. -/
theorem sum_cols (f : Fin 4096 → M) :
    ∑ kk : Fin 4096, f kk = ∑ j : Fin 4, ∑ k : Fin 1024, f (col j k) := by
  rw [Cert.SumDigits.sum_fin_mul (m := 4) (n := 1024) rfl f]
  exact Finset.sum_congr rfl fun j _ => Finset.sum_congr rfl fun k _ => rfl

/-- A sum over 4096 columns is the sum of the four consecutive blocks of 1024 columns, associated
    to the left. -/
theorem sum_four_blocks (f : Fin 4096 → M) :
    ∑ kk : Fin 4096, f kk
      = ((∑ k : Fin 1024, f (col 0 k) + ∑ k : Fin 1024, f (col 1 k))
          + ∑ k : Fin 1024, f (col 2 k)) + ∑ k : Fin 1024, f (col 3 k) := by
  rw [sum_cols, Fin.sum_univ_four]

/-- A sum over 4096 rows is the triple sum over the digits `o < 8`, `g < 64`, `s < 8` of the row
    `o * 512 + g * 8 + s = (o * 64 + g) * 8 + s`. -/
theorem sum_rows3 (h : Fin 4096 → M) :
    ∑ R : Fin 4096, h R = ∑ o : Fin 8, ∑ g : Fin 64, ∑ s : Fin 8, h (row3 o g s) := by
  rw [Cert.SumDigits.sum_fin_mul (m := 512) (n := 8) rfl h,
    Cert.SumDigits.sum_fin_mul (m := 8) (n := 64) rfl
      (fun p : Fin 512 => ∑ s : Fin 8, h ⟨p.val * 8 + s.val, Cert.SumDigits.digits_lt p s⟩)]
  refine Finset.sum_congr rfl fun o _ => Finset.sum_congr rfl fun g _ =>
    Finset.sum_congr rfl fun s _ => ?_
  congr 1
  apply Fin.ext
  simp only [row3]
  omega

/-- A sum over 4096 rows is the double sum over `r < 64` and `g < 64` of the row
    `(r / 8) * 512 + g * 8 + r % 8`. -/
theorem sum_rows (h : Fin 4096 → M) :
    ∑ R : Fin 4096, h R = ∑ r : Fin 64, ∑ g : Fin 64, h (row r g) := by
  rw [sum_rows3,
    Cert.SumDigits.sum_fin_mul (m := 8) (n := 8) rfl (fun r : Fin 64 => ∑ g : Fin 64, h (row r g))]
  refine Finset.sum_congr rfl fun o _ => ?_
  rw [Finset.sum_comm]
  refine Finset.sum_congr rfl fun s _ => Finset.sum_congr rfl fun g _ => ?_
  rw [row_pair]

/-- The double sum of `D` over 4096 rows and 4096 columns, regrouped: rows as
    `(o, g, s) ↦ o * 512 + g * 8 + s` with `o < 8`, `g < 64`, `s < 8`, listed by the pair
    `r = o * 8 + s < 64` outside and `g` inside; columns as `(j, l) ↦ j * 1024 + l` with the four
    `j` written out and associated to the left. -/
theorem sum_rows_cols (D : Fin 4096 → Fin 4096 → M) :
    ∑ r : Fin 64, ∑ l : Fin 1024,
        (((∑ g : Fin 64, D (row r g) (col 0 l) + ∑ g : Fin 64, D (row r g) (col 1 l))
            + ∑ g : Fin 64, D (row r g) (col 2 l)) + ∑ g : Fin 64, D (row r g) (col 3 l))
      = ∑ R : Fin 4096, ∑ Cc : Fin 4096, D R Cc := by
  symm
  calc ∑ R : Fin 4096, ∑ Cc : Fin 4096, D R Cc
      = ∑ r : Fin 64, ∑ g : Fin 64, ∑ Cc : Fin 4096, D (row r g) Cc :=
        sum_rows fun R => ∑ Cc : Fin 4096, D R Cc
    _ = ∑ r : Fin 64, ∑ g : Fin 64, ∑ l : Fin 1024,
          (((D (row r g) (col 0 l) + D (row r g) (col 1 l)) + D (row r g) (col 2 l))
            + D (row r g) (col 3 l)) := by
        refine Finset.sum_congr rfl fun r _ => Finset.sum_congr rfl fun g _ => ?_
        rw [sum_cols, Finset.sum_comm]
        exact Finset.sum_congr rfl fun l _ => Fin.sum_univ_four _
    _ = ∑ r : Fin 64, ∑ l : Fin 1024, ∑ g : Fin 64,
          (((D (row r g) (col 0 l) + D (row r g) (col 1 l)) + D (row r g) (col 2 l))
            + D (row r g) (col 3 l)) :=
        Finset.sum_congr rfl fun r _ => Finset.sum_comm
    _ = ∑ r : Fin 64, ∑ l : Fin 1024,
          (((∑ g : Fin 64, D (row r g) (col 0 l) + ∑ g : Fin 64, D (row r g) (col 1 l))
              + ∑ g : Fin 64, D (row r g) (col 2 l)) + ∑ g : Fin 64, D (row r g) (col 3 l)) := by
        refine Finset.sum_congr rfl fun r _ => Finset.sum_congr rfl fun l _ => ?_
        rw [Finset.sum_add_distrib, Finset.sum_add_distrib, Finset.sum_add_distrib]

end Cert.SumBlocks
-- ==== Proof.RefJoin.lean ====
/-
  Joining block sums to the reference's stages, over the extended reals.

  The product: an entry of the reference's `dot_general` is the sum over the 4096 contracted columns
  of the left operand's row times the weight stage's row; split into the four consecutive blocks of
  1024 columns and added left to right, it is the same value (`y_join`).

  The mean: the reference sums its integrand over all 4096 × 4096 entries from zero and divides by
  2^24.  A 64 × 1024 array of partial sums whose entry `(r, l)` collects, left to right, the four
  column blocks at offset `l` of the sums over the 64 row groups of the rows `row r g`, has the same
  total, since the rows `row r g` and the columns `col j l` list every entry exactly once; so the
  host's total of that array from zero, divided by the same constant, is the reference's mean
  (`kl_join`).
-/
import proofs.«136775_j5574867550300_2_alg».proof.Proof.Gen.ReferenceIdeal.Read
import proofs.«136775_j5574867550300_2_alg».proof.KernelIdeal
import proofs.«136775_j5574867550300_2_alg».proof.Proof.LibSumBlocks
import Idealize.ShloMosaic.PureOps.Ideal.Laws
import Idealize.ShloMosaic.Lib.ValueIdx

open scoped BigOperators

namespace Cert.RefJoin

open Idealize.ShloMosaic Idealize.ShloMosaic.ValueIdx Cert.SumBlocks Cert.ReferenceIdeal

/-- At the entry `(b, R)` of the product, the left operand is read at `(b, kk)` for the contracted
    column `kk`. -/
theorem lidx_ix2 (b : Fin 512) (R : Fin 4096) (kk : Fin 4096) :
    Read.lidx_main_v40 (ix2 b R) kk = ix2 b kk := by
  funext a
  match a with
  | ⟨0, _⟩ => rfl
  | ⟨1, _⟩ => rfl

/-- At the entry `(b, R)` of the product, the right operand is read at `(R, kk)` for the contracted
    column `kk`. -/
theorem ridx_ix2 (b : Fin 512) (R : Fin 4096) (kk : Fin 4096) :
    Read.ridx_main_v40 (ix2 b R) kk = ix2 R kk := by
  funext a
  match a with
  | ⟨0, _⟩ => rfl
  | ⟨1, _⟩ => rfl

/-- The four column blocks of a row of the product, added left to right, are the reference's
    dot_general at that entry. -/
theorem y_join (x : Cert.ReferenceIdeal.S512x4096.Idx → Ideal .f32) (μ σ ε : S4096x4096.Idx → Ideal .f32)
    (b : Fin 512) (R : Fin 4096) :
    ((∑ k : Fin 1024, x (ix2 b (col 0 k)) * Read.val_main_v2 (F := Ideal) μ σ ε (ix2 R (col 0 k))
        + ∑ k : Fin 1024, x (ix2 b (col 1 k)) * Read.val_main_v2 (F := Ideal) μ σ ε (ix2 R (col 1 k)))
        + ∑ k : Fin 1024, x (ix2 b (col 2 k)) * Read.val_main_v2 (F := Ideal) μ σ ε (ix2 R (col 2 k)))
        + ∑ k : Fin 1024, x (ix2 b (col 3 k)) * Read.val_main_v2 (F := Ideal) μ σ ε (ix2 R (col 3 k))
      = Read.val_main_v40 (F := Ideal) x μ σ ε (ix2 b R) := by
  rw [Read.val_main_v40_apply,
    sum_four_blocks (fun kk : Fin 4096 => x (Read.lidx_main_v40 (ix2 b R) kk)
      * Read.val_main_v2 (F := Ideal) μ σ ε (Read.ridx_main_v40 (ix2 b R) kk))]
  simp only [lidx_ix2, ridx_ix2]

/-- The host's total of a 64 × 1024 array from the zero word is zero plus the sum of all its
    entries. -/
theorem total_apply [Cert.KernelIdeal.Facts] (KLP : Cert.KernelIdeal.S64x1024.Idx → Ideal .f32)
    (i : Cert.KernelIdeal.S_.Idx) :
    Host.reduceAdd (F := Ideal) KLP (constant Cert.KernelIdeal.S_ .f32 0x00000000#32)
        Cert.KernelIdeal.Facts₀.reducesTo_S64x1024_S_d0_1 Cert.KernelIdeal.Facts₀.h_S_ i
      = (constant (F := Ideal) Cert.KernelIdeal.S_ .f32 0x00000000#32)
          (Shape.Idx.first Cert.KernelIdeal.Facts₀.h_S_)
        + ∑ j : Cert.KernelIdeal.S64x1024.Idx, KLP j := by
  simp only [Host.reduceAdd, Ideal.hostReduceAdd_def]
  exact Ideal.hostReduceAdd_total Cert.KernelIdeal.Facts₀.reducesTo_S64x1024_S_d0_1
    (fun b => b.elim0) KLP _ i

/-- The sum of all entries of the 64 × 1024 array of partial sums is the sum of the integrand over
    all 4096 × 4096 entries. -/
theorem sum_join (μ σ ε : S4096x4096.Idx → Ideal .f32) (KLP : Cert.KernelIdeal.S64x1024.Idx → Ideal .f32)
    (hK : ∀ (r : Fin 64) (l : Fin 1024), KLP (ix2 r l)
      = (((∑ g : Fin 64, Read.val_main_v37 (F := Ideal) μ σ ε (ix2 (row r g) (col 0 l))
          + ∑ g : Fin 64, Read.val_main_v37 (F := Ideal) μ σ ε (ix2 (row r g) (col 1 l)))
          + ∑ g : Fin 64, Read.val_main_v37 (F := Ideal) μ σ ε (ix2 (row r g) (col 2 l)))
          + ∑ g : Fin 64, Read.val_main_v37 (F := Ideal) μ σ ε (ix2 (row r g) (col 3 l)))) :
    ∑ j : Cert.KernelIdeal.S64x1024.Idx, KLP j
      = ∑ j : S4096x4096.Idx, Read.val_main_v37 (F := Ideal) μ σ ε j := by
  rw [sum_idx2 KLP, sum_idx2 (Read.val_main_v37 (F := Ideal) μ σ ε)]
  simp only [hK]
  exact sum_rows_cols (fun R Cc => Read.val_main_v37 (F := Ideal) μ σ ε (ix2 R Cc))

/-- The host's total of the 64 × 1024 partial sums, divided by 2^24, is the reference's mean, when
    each partial sum is the four column blocks (left to right) of the sums over the 64 row
    groups. -/
theorem kl_join [Cert.KernelIdeal.Facts] (μ σ ε : S4096x4096.Idx → Ideal .f32)
    (KLP : Cert.KernelIdeal.S64x1024.Idx → Ideal .f32)
    (hK : ∀ (r : Fin 64) (l : Fin 1024), KLP (ix2 r l)
      = (((∑ g : Fin 64, Read.val_main_v37 (F := Ideal) μ σ ε (ix2 (row r g) (col 0 l))
          + ∑ g : Fin 64, Read.val_main_v37 (F := Ideal) μ σ ε (ix2 (row r g) (col 1 l)))
          + ∑ g : Fin 64, Read.val_main_v37 (F := Ideal) μ σ ε (ix2 (row r g) (col 2 l)))
          + ∑ g : Fin 64, Read.val_main_v37 (F := Ideal) μ σ ε (ix2 (row r g) (col 3 l)))) :
    Host.divf (Host.reduceAdd (F := Ideal) KLP (constant Cert.KernelIdeal.S_ .f32 0x00000000#32)
        Cert.KernelIdeal.Facts₀.reducesTo_S64x1024_S_d0_1 Cert.KernelIdeal.Facts₀.h_S_)
        (constant (F := Ideal) Cert.KernelIdeal.S_ .f32 0x4B800000#32)
      = Read.val_main_v39 (F := Ideal) μ σ ε := by
  funext i
  rw [Read.val_main_v39_apply, Read.val_main_v38_apply, ← sum_join μ σ ε KLP hK]
  show FloatOps.hostDivf
      (Host.reduceAdd (F := Ideal) KLP (constant Cert.KernelIdeal.S_ .f32 0x00000000#32)
        Cert.KernelIdeal.Facts₀.reducesTo_S64x1024_S_d0_1 Cert.KernelIdeal.Facts₀.h_S_ i)
      (constant (F := Ideal) Cert.KernelIdeal.S_ .f32 0x4B800000#32 i) = _
  rw [total_apply]
  rfl

end Cert.RefJoin
-- ==== Proof.KFinal.lean ====
import proofs.«136775_j5574867550300_2_alg».proof.Proof.Gen.KernelIdeal.Frame
import proofs.«136775_j5574867550300_2_alg».proof.Proof.Gen.ReferenceIdeal.Read
import proofs.«136775_j5574867550300_2_alg».proof.Proof.KBlocks
import proofs.«136775_j5574867550300_2_alg».proof.Proof.KChain
import proofs.«136775_j5574867550300_2_alg».proof.Proof.KCover
import proofs.«136775_j5574867550300_2_alg».proof.Proof.RefJoin
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KFinal

open Cert.KernelIdeal Cert.KernelIdeal.Gen Cert.KernelIdeal.KBlocks Cert.KernelIdeal.KChain Cert.KernelIdeal.KCover

variable (m : (ℓ : Loc nD τ sig) → Buf (Elt Ideal) ℓ) (ρ : Dev nD → PrngReg)

/-! The two arrays the region leaves. A row tile's last point writes back the two accumulators; written out, the product
    accumulator after the four column tiles is the reference's contraction over all 4096 columns, and the partial sums are
    the four column tiles' sums over the 64 row groups. The written-back blocks tile both arrays. -/

/-- The product as the reference computes it, of the arguments the region finds. -/
def G4 (c : Dev nD) : Cert.ReferenceIdeal.S512x4096.Idx → Ideal .f32 :=
  Cert.ReferenceIdeal.Read.val_main_v40 (F := Ideal) (V m c main_arg0) (V m c main_arg1) (V m c main_arg2) (V m c main_arg3)

/-- The array of partial sums: at row o·8 + s, column l, the accumulator of row tile o after its four column tiles. -/
def G5 (c : Dev nD) : S64x1024.Idx → Ideal .f32 := fun i =>
  kacc m c ⟨(i 0).val / 8, by have := (i 0).isLt; have h : (i 0).val < 64 := this; omega⟩ ⟨(i 0).val % 8, Nat.mod_lt _ (by decide)⟩ (i 1) 3

theorem yacc3 (c : Dev nD) (o : Fin 8) (b oo : Fin 512) :
    yacc m c o b oo 3 = ((ypart m c o 0 b oo + ypart m c o 1 b oo) + ypart m c o 2 b oo) + ypart m c o 3 b oo := rfl

theorem kacc3 (c : Dev nD) (o : Fin 8) (s : Fin 8) (l : Fin 1024) :
    kacc m c o s l 3 = ((kpart m c o 0 s l + kpart m c o 1 s l) + kpart m c o 2 s l) + kpart m c o 3 s l := rfl

/-- The full product accumulator of row tile o at (b, oo) is the reference's product at row b, column o·512 + oo. -/
theorem yacc_eq_G4 (c : Dev nD) (o : Fin 8) (b oo : Fin 512) : yacc m c o b oo 3 = G4 m c (ix2 b (wrow o oo)) :=
  (yacc3 m c o b oo).trans
    (Cert.RefJoin.y_join (V m c main_arg0) (V m c main_arg1) (V m c main_arg2) (V m c main_arg3) b (wrow o oo))

/-- What a row tile's last point writes back into the product is that block of the reference's product. -/
theorem flushed4_eq (c : Dev nD) (t : Fin cfg0.N) (hf : (cfg0.win 4).flush t = true) :
    (dats m 0 c).flushed 4 t = ((cfg0.win 4).blk t).view.read (Elt Ideal) (G4 m c) := by
  have h3 : t.val % 4 = 3 := (flush0_4 t).mp hf
  show (cfg0.win 4).cut (grid0.coords t) ((dats m 0 c).after 4 t) = _
  rw [after0_4]
  funext y
  obtain ⟨b, oo, rfl⟩ : ∃ (b : Fin 512) (oo : Fin 512), y = ix2 b oo := ⟨y 0, y 1, eq_ix2 y⟩
  rw [View.read_apply]
  show (outsAt0 m c t.val t.isLt).1 (ix2 b oo) = G4 m c (((cfg0.win 4).blk t).view.emb (ix2 b oo))
  rw [emb4 t b oo, out4_eq m c t h3 b oo]
  exact yacc_eq_G4 m c (pto t) b oo

/-- And into the partial sums, that block of them. -/
theorem flushed5_eq (c : Dev nD) (t : Fin cfg0.N) (hf : (cfg0.win 5).flush t = true) :
    (dats m 0 c).flushed 5 t = ((cfg0.win 5).blk t).view.read (Elt Ideal) (G5 m c) := by
  have h3 : t.val % 4 = 3 := (flush0_5 t).mp hf
  show (cfg0.win 5).cut (grid0.coords t) ((dats m 0 c).after 5 t) = _
  rw [after0_5]
  funext y
  obtain ⟨s, l, rfl⟩ : ∃ (s : Fin 8) (l : Fin 1024), y = ix2 s l := ⟨y 0, y 1, eq_ix2 y⟩
  rw [View.read_apply]
  show (outsAt0 m c t.val t.isLt).2.1 (ix2 s l) = G5 m c (((cfg0.win 5).blk t).view.emb (ix2 s l))
  rw [emb5 t s l, out5_eq m c t h3 s l]
  have ho : (⟨((prow (pto t) s).val) / 8, by have := (prow (pto t) s).isLt; omega⟩ : Fin 8) = pto t :=
    Fin.ext (by show ((pto t).val * 8 + s.val) / 8 = (pto t).val; have := s.isLt; omega)
  have hs : (⟨((prow (pto t) s).val) % 8, Nat.mod_lt _ (by decide)⟩ : Fin 8) = s :=
    Fin.ext (by show ((pto t).val * 8 + s.val) % 8 = s.val; have := s.isLt; omega)
  show _ = kacc m c ⟨((prow (pto t) s).val) / 8, _⟩ ⟨((prow (pto t) s).val) % 8, _⟩ l 3
  rw [ho, hs]

/-- The product array after the run is the reference's product. -/
theorem final4 (c : Dev nD) : (dats m 0 c).arrAt 4 cfg0.N = G4 m c :=
  (dats m 0 c).arrAt_eq_of_cover 4 (G4 m c) (flushed4_eq m c) cover4

/-- The partial-sum array after the run. -/
theorem final5 (c : Dev nD) : (dats m 0 c).arrAt 5 cfg0.N = G5 m c :=
  (dats m 0 c).arrAt_eq_of_cover 5 (G5 m c) (flushed5_eq m c) cover5

/-- Each partial sum, written by the row groups and column tiles the joining lemma speaks of. -/
theorem G5_blocks (c : Dev nD) (r : Fin 64) (l : Fin 1024) :
    G5 m c (ix2 r l) = (((∑ g : Fin 64, Dr m c (ix2 (Cert.SumBlocks.row r g) (Cert.SumBlocks.col 0 l)) + ∑ g : Fin 64, Dr m c (ix2 (Cert.SumBlocks.row r g) (Cert.SumBlocks.col 1 l))) + ∑ g : Fin 64, Dr m c (ix2 (Cert.SumBlocks.row r g) (Cert.SumBlocks.col 2 l))) + ∑ g : Fin 64, Dr m c (ix2 (Cert.SumBlocks.row r g) (Cert.SumBlocks.col 3 l))) := by
  show kacc m c ⟨r.val / 8, _⟩ ⟨r.val % 8, _⟩ l 3 = _
  rw [kacc3]
  have hrow : ∀ g : Fin 64, wrow ⟨r.val / 8, by have := r.isLt; omega⟩ (Cert.KernelIdeal.KPay.row8 g ⟨r.val % 8, Nat.mod_lt _ (by decide)⟩) = Cert.SumBlocks.row r g :=
    fun g => Fin.ext (by show r.val / 8 * 512 + (g.val * 8 + r.val % 8) = r.val / 8 * 512 + g.val * 8 + r.val % 8; omega)
  unfold kpart
  simp only [hrow]
  rfl

end Cert.KernelIdeal.KFinal

end
-- ==== Proof.KTail.lean ====
/-
  The host operations after the region, read off the run: the program returns the product array as the region leaves it and
  the scalar obtained from the array of partial sums by adding all its entries from zero and dividing by the constant 2^24;
  the four argument arrays are the region's inputs and end unchanged. Generic in the float values.
-/
import proofs.«136775_j5574867550300_2_alg».proof.Proof.Gen.KernelIdeal.Frame
import Idealize.ShloMosaic.Lib.Pipeline.Value
import Idealize.ShloMosaic.Lib.ValueIdx
import Idealize.ShloMosaic.Lib.Tactic
import Idealize.ShloMosaic.Lib.StableHlo.Run
import Idealize.ShloMosaic.Lib.Pipeline.FrameSuffix

noncomputable section

open Idealize.ShloMosaic Idealize.ShloMosaic.TcCoe Idealize.SL.Sem Idealize.ShloMosaic.ValueIdx
open Idealize.ShloMosaic.Pipeline (Dat)

namespace Cert.KernelIdeal.KTail

open Cert.KernelIdeal Cert.KernelIdeal.Gen

variable {F : FTy → Type} [FloatOps F]
variable (m : (ℓ : Loc nD τ sig) → Buf (Elt F) ℓ)

/-- main_v2 is one of the buffers the frame post speaks of besides the windows' arrays. -/
theorem v2_rest : main_v2 ∈ Pipeline.restRefs sig spec0 := by decide

/-- After the region the partial-sum buffer holds window 5's array as the proof data give it after the last point. -/
theorem exit_v0_1 (c : Dev nD) :
    Pipeline.withArrays (cfgs 0).spec c (V0 m c) (fun w => (dats m 0 c).arrAt w (cfgs 0).N) (Proc.devRef .tc main_v0_1)
      = (dats m 0 c).arrAt 5 cfg0.N :=
  Pipeline.withArrays_arr spec0 launch0.win.arr_inj c (V0 m c) (fun w => (dats m 0 c).arrAt w cfg0.N) 5

/-- The scalar the program returns: the host's total of the partial-sum array the region leaves, divided by the constant. -/
theorem tail_v2 (c : Dev nD) : Pipeline.afterTail₀ cfgs (dats m) 0 (V0 m) [hostOps1] c main_v2
      = Host.divf (Host.reduceAdd ((dats m 0 c).arrAt 5 cfg0.N : (⟨S64x1024, .f32⟩ : BufTy).Contents (Elt F)) (constant S_ .f32 0x00000000#32) reducesTo_S64x1024_S_d0_1 h_S_) (constant S_ .f32 0x4B800000#32) := by
  unfold Pipeline.afterTail₀
  show StableHlo.after hostOps1 _ (Proc.devRef .tc main_v2) = _
  after_results
  rw [exit_v0_1]

/-- The run's post read at the two results and the four arguments. -/
theorem post_read (r : PUnit × MemSt nD τ sig (Elt F))
    (h : Pipeline.FramePost cfgs (dats m) 0 (Pipeline.afterTail₀ cfgs (dats m) 0 (V0 m) [hostOps1]) r) (c : Dev nD) :
    r.2.mem ((c.tc : Thread nD τ).loc main_v0_0) = (dats m 0 c).arrAt 4 cfg0.N
    ∧ r.2.mem ((c.tc : Thread nD τ).loc main_v2)
        = Host.divf (Host.reduceAdd ((dats m 0 c).arrAt 5 cfg0.N : (⟨S64x1024, .f32⟩ : BufTy).Contents (Elt F)) (constant S_ .f32 0x00000000#32) reducesTo_S64x1024_S_d0_1 h_S_) (constant S_ .f32 0x4B800000#32)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  ⟨(h c).1 4,
    ((h c).2 main_v2 v2_rest).trans (tail_v2 m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).1 3).trans (((dats m 0 c).arrAt_in 3 rfl _).trans ((A_eq m c 3).trans (V_main_arg3 m c)))⟩

end Cert.KernelIdeal.KTail

end
-- ==== Proof.KRun.lean ====
import proofs.«136775_j5574867550300_2_alg».proof.Proof.Gen.KernelIdeal.Frame
import proofs.«136775_j5574867550300_2_alg».proof.Proof.Gen.ReferenceIdeal.Read
import proofs.«136775_j5574867550300_2_alg».proof.Proof.KChain
import proofs.«136775_j5574867550300_2_alg».proof.Proof.KFinal
import proofs.«136775_j5574867550300_2_alg».proof.Proof.KTail
import proofs.«136775_j5574867550300_2_alg».proof.Proof.RefJoin
import Idealize.ShloMosaic.Lib.Pipeline.Value
import Idealize.ShloMosaic.Lib.ValueIdx
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.KRun

open Cert.KernelIdeal Cert.KernelIdeal.Gen Cert.KernelIdeal.KChain Cert.KernelIdeal.KFinal Cert.KernelIdeal.KTail

variable (m : (ℓ : Loc nD τ sig) → Buf (Elt Ideal) ℓ) (ρ : Dev nD → PrngReg)

/-! The idealized kernel's run, read: its first result ends at the reference's product and its second at the reference's
    mean, both as functions of the arguments the region finds; the arguments end unchanged. -/

/-- The mean as the reference computes it, of the arguments the region finds. -/
def Gkl (c : Dev nD) : Cert.ReferenceIdeal.S_.Idx → Ideal .f32 :=
  Cert.ReferenceIdeal.Read.val_main_v39 (F := Ideal) (V m c main_arg1) (V m c main_arg2) (V m c main_arg3)

/-- The host's total of the partial sums the region leaves, divided by the constant, is the reference's mean. -/
theorem tail_eq (c : Dev nD) :
    Host.divf (Host.reduceAdd ((dats m 0 c).arrAt 5 cfg0.N : (⟨S64x1024, .f32⟩ : BufTy).Contents (Elt Ideal)) (constant S_ .f32 0x00000000#32) reducesTo_S64x1024_S_d0_1 h_S_) (constant S_ .f32 0x4B800000#32)
      = Gkl m c := by
  rw [final5 m c]
  exact Cert.RefJoin.kl_join (V m c main_arg1) (V m c main_arg2) (V m c main_arg3) (G5 m c) (G5_blocks m c)

/-- Every weakly fair execution of the idealized kernel terminates with the product at the reference's product, the scalar
    at the reference's mean and the four arguments unchanged. -/
theorem run : θ_run defs (onTc (τ := τ) (main (F := Ideal))) ⟨m, fun _ => 0, ρ⟩ fun r => ∀ c : Dev nD,
      r.2.mem ((c.tc : Thread nD τ).loc main_v0_0) = G4 m c
      ∧ r.2.mem ((c.tc : Thread nD τ).loc main_v2) = Gkl m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => by
      obtain ⟨h0, h2, ha0, ha1, ha2, ha3⟩ := post_read m r h c
      exact ⟨h0.trans (final4 m c), h2.trans (tail_eq m c), ha0, ha1, ha2, ha3⟩)
    (run_main m ρ)

end Cert.KernelIdeal.KRun

end
-- ==== Proof.lean ====
/-
  The variational linear layer. From the activations x [512, 4096] and the three weight-shaped arrays mu, sigma, eps
  [4096, 4096] both programs form the sampled weight w = mu + softplus(sigma) · eps, the product y = x · wᵀ, and the mean
  over all 4096 × 4096 entries of an integrand d(mu, sigma, eps) (the log-density of the sample under the variational
  posterior minus its log-density under a two-component mixture prior).

  The kernel walks an 8 × 4 grid of weight blocks of 512 rows and 1024 columns. Along a row tile it accumulates, in two
  scratch buffers zeroed at the first column tile, the block's share of the product (a contraction over the block's 1024
  columns) and, for each of the eight row residues, the block's share of the integrand's sum over the 64 groups of eight rows;
  the last column tile writes both out, and the host adds up the 64 × 1024 partial sums and divides by 2^24. The reference
  contracts all 4096 columns at once and takes the mean of the whole integrand.

  Over the extended reals the two agree with no finiteness assumption: entry by entry the two softplus spellings, the two ways
  of negating and the device and host transcendentals are one function (a NaN guard that compares a value with itself is
  false on both sides); addition is commutative and associative, so the four column tiles' contractions are the contraction
  over all columns, and the partial sums regroup into the sum over every entry; the division by 2^24 is the same word on both
  sides. The kernel's idealization rewrote nothing.

  The frames of the two kernel programs and the reference's run and its stages read at an index are the generated modules;
  written by hand are the contents of the accumulators point by point, the two arrays the region leaves, the host tail, and the
  joining sums.
-/
import proofs.«136775_j5574867550300_2_alg».proof.Defs
import proofs.«136775_j5574867550300_2_alg».proof.Proof.Gen.Kernel
import proofs.«136775_j5574867550300_2_alg».proof.Proof.Gen.Kernel.Skeleton
import proofs.«136775_j5574867550300_2_alg».proof.Proof.Gen.Kernel.Launch
import proofs.«136775_j5574867550300_2_alg».proof.Proof.Gen.Kernel.Points
import proofs.«136775_j5574867550300_2_alg».proof.Proof.Gen.Kernel.Frame
import proofs.«136775_j5574867550300_2_alg».proof.Proof.Gen.KernelIdeal
import proofs.«136775_j5574867550300_2_alg».proof.Proof.Gen.KernelIdeal.Skeleton
import proofs.«136775_j5574867550300_2_alg».proof.Proof.Gen.KernelIdeal.Launch
import proofs.«136775_j5574867550300_2_alg».proof.Proof.Gen.KernelIdeal.Points
import proofs.«136775_j5574867550300_2_alg».proof.Proof.Gen.KernelIdeal.Frame
import proofs.«136775_j5574867550300_2_alg».proof.Proof.Gen.ReferenceIdeal
import proofs.«136775_j5574867550300_2_alg».proof.Proof.Gen.Pre_finite_inputs
import proofs.«136775_j5574867550300_2_alg».proof.Proof.Gen.ReferenceIdeal.Run
import proofs.«136775_j5574867550300_2_alg».proof.Proof.Gen.ReferenceIdeal.Read
import proofs.«136775_j5574867550300_2_alg».proof.Proof.KRun
import Idealize.ShloMosaic.Adequacy
import Idealize.ShloMosaic.Init

noncomputable section

namespace Cert.Proof

open Idealize.ShloMosaic Idealize.SL.Sem

/-- The word-level kernel terminates without a fault and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- And the reference: its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with the product at the reference's contraction and the
    scalar at the reference's mean of the arguments. -/
theorem algebraic : Cert.algebraic_KernelIdeal_ReferenceIdeal := by
  intro m ρ m' ρ' _ hagree
  refine ⟨fun c => Cert.KernelIdeal.KFinal.G4 m c, fun c => Cert.KernelIdeal.KRun.Gkl m c, Cert.KernelIdeal.KRun.run m ρ, ?_⟩
  refine (θ_run Cert.ReferenceIdeal.defs _ _).mono (fun _ h c => ?_) (Cert.ReferenceIdeal.Value.run (F := Ideal) m' ρ')
  obtain ⟨h40, h39, k0, k1, k2, k3⟩ := h c
  obtain ⟨a0, a1, a2, a3⟩ := hagree c
  refine ⟨h40.trans ?_, h39.trans ?_, k0, k1, k2, k3⟩
  · rw [Cert.ReferenceIdeal.Read.val_main_v40_eq, a0, a1, a2, a3]
    rfl
  · rw [Cert.ReferenceIdeal.Read.val_main_v39_eq, a1, a2, a3]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
